-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S512x1024 : Shape := ⟨2, ![512, 1024]⟩
abbrev S512 : Shape := ⟨1, ![512]⟩
abbrev S341x512 : Shape := ⟨2, ![341, 512]⟩
abbrev S341 : Shape := ⟨1, ![341]⟩
abbrev S512x341 : Shape := ⟨2, ![512, 341]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S341x512 : S_.BroadcastsInDim S341x512 (![] : Fin 0 → Fin S341x512.rank)
  reducesTo_S341x512_S_d0_1 : S341x512.ReducesTo [0, 1] S_
  bcast_S_S341 : S_.BroadcastsInDim S341 (![] : Fin 0 → Fin S341.rank)
  reducesTo_S341_S_d0 : S341.ReducesTo [0] S_
  bcast_S_S512x341 : S_.BroadcastsInDim S512x341 (![] : Fin 0 → Fin S512x341.rank)
  reducesTo_S512x341_S_d0_1 : S512x341.ReducesTo [0, 1] S_

variable [Facts]

def fn_part7 {F : FTy → Type} [FloatOps F] (main_v118 : IVec S_ 1) (main_v119 : FVec F S512 .f32) : IVec S_ 1 :=
  let main_cst_46 : FVec F S_ .f32 := constant S_ .f32 0x7F800000#32
  let main_v120 : FVec F S512 .f32 := broadcastInDim S512 ![] bcast_S_S512 main_cst_46
  let main_v121 : IVec S512 1 := cmpf .olt main_v119 main_v120
  let main_c_47 : IVec S_ 1 := constantI S_ 1 1#1
  let main_v122 : IVec S_ 1 := (fun x v => Host.reduce IntOp.andi x v reducesTo_S512_S_d0 h_S_) main_v121 main_c_47
  let main_v123 : IVec S_ 1 := andi main_v118 main_v122
  main_v123

def fn_part6 {F : FTy → Type} [FloatOps F] (main_arg21 : FVec F S341x512 .f32) (main_arg22 : FVec F S341 .f32) (main_arg23 : FVec F S512x341 .f32) (main_arg24 : FVec F S512 .f32) (main_v98 : IVec S_ 1) (main_v101 : IVec S512 1) (main_c_39 : IVec S_ 1) : IVec S_ 1 :=
  let main_v102 : IVec S_ 1 := (fun x v => Host.reduce IntOp.andi x v reducesTo_S512_S_d0 h_S_) main_v101 main_c_39
  let main_v103 : IVec S_ 1 := andi main_v98 main_v102
  let main_v104 : FVec F S341x512 .f32 := Host.absf main_arg21
  let main_cst_40 : FVec F S_ .f32 := constant S_ .f32 0x7F800000#32
  let main_v105 : FVec F S341x512 .f32 := broadcastInDim S341x512 ![] bcast_S_S341x512 main_cst_40
  let main_v106 : IVec S341x512 1 := cmpf .olt main_v104 main_v105
  let main_c_41 : IVec S_ 1 := constantI S_ 1 1#1
  let main_v107 : IVec S_ 1 := (fun x v => Host.reduce IntOp.andi x v reducesTo_S341x512_S_d0_1 h_S_) main_v106 main_c_41
  let main_v108 : IVec S_ 1 := andi main_v103 main_v107
  let main_v109 : FVec F S341 .f32 := Host.absf main_arg22
  let main_cst_42 : FVec F S_ .f32 := constant S_ .f32 0x7F800000#32
  let main_v110 : FVec F S341 .f32 := broadcastInDim S341 ![] bcast_S_S341 main_cst_42
  let main_v111 : IVec S341 1 := cmpf .olt main_v109 main_v110
  let main_c_43 : IVec S_ 1 := constantI S_ 1 1#1
  let main_v112 : IVec S_ 1 := (fun x v => Host.reduce IntOp.andi x v reducesTo_S341_S_d0 h_S_) main_v111 main_c_43
  let main_v113 : IVec S_ 1 := andi main_v108 main_v112
  let main_v114 : FVec F S512x341 .f32 := Host.absf main_arg23
  let main_cst_44 : FVec F S_ .f32 := constant S_ .f32 0x7F800000#32
  let main_v115 : FVec F S512x341 .f32 := broadcastInDim S512x341 ![] bcast_S_S512x341 main_cst_44
  let main_v116 : IVec S512x341 1 := cmpf .olt main_v114 main_v115
  let main_c_45 : IVec S_ 1 := constantI S_ 1 1#1
  let main_v117 : IVec S_ 1 := (fun x v => Host.reduce IntOp.andi x v reducesTo_S512x341_S_d0_1 h_S_) main_v116 main_c_45
  let main_v118 : IVec S_ 1 := andi main_v113 main_v117
  let main_v119 : FVec F S512 .f32 := Host.absf main_arg24
  fn_part7 (F := F) main_v118 main_v119

def fn_part5 {F : FTy → Type} [FloatOps F] (main_arg18 : FVec F S1024 .f32) (main_arg19 : FVec F S512x1024 .f32) (main_arg20 : FVec F S512 .f32) (main_arg21 : FVec F S341x512 .f32) (main_arg22 : FVec F S341 .f32) (main_arg23 : FVec F S512x341 .f32) (main_arg24 : FVec F S512 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  let main_v94 : FVec F S512x1024 .f32 := Host.absf main_arg19
  let main_cst_36 : FVec F S_ .f32 := constant S_ .f32 0x7F800000#32
  let main_v95 : FVec F S512x1024 .f32 := broadcastInDim S512x1024 ![] bcast_S_S512x1024 main_cst_36
  let main_v96 : IVec S512x1024 1 := cmpf .olt main_v94 main_v95
  let main_c_37 : IVec S_ 1 := constantI S_ 1 1#1
  let main_v97 : IVec S_ 1 := (fun x v => Host.reduce IntOp.andi x v reducesTo_S512x1024_S_d0_1 h_S_) main_v96 main_c_37
  let main_v98 : IVec S_ 1 := andi main_v93 main_v97
  let main_v99 : FVec F S512 .f32 := Host.absf main_arg20
  let main_cst_38 : FVec F S_ .f32 := constant S_ .f32 0x7F800000#32
  let main_v100 : FVec F S512 .f32 := broadcastInDim S512 ![] bcast_S_S512 main_cst_38
  let main_v101 : IVec S512 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_arg19 : FVec F S512x1024 .f32) (main_arg20 : FVec F S512 .f32) (main_arg21 : FVec F S341x512 .f32) (main_arg22 : FVec F S341 .f32) (main_arg23 : FVec F S512x341 .f32) (main_arg24 : FVec F S512 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_arg19 : FVec F S512x1024 .f32) (main_arg20 : FVec F S512 .f32) (main_arg21 : FVec F S341x512 .f32) (main_arg22 : FVec F S341 .f32) (main_arg23 : FVec F S512x341 .f32) (main_arg24 : FVec F S512 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_arg19 : FVec F S512x1024 .f32) (main_arg20 : FVec F S512 .f32) (main_arg21 : FVec F S341x512 .f32) (main_arg22 : FVec F S341 .f32) (main_arg23 : FVec F S512x341 .f32) (main_arg24 : FVec F S512 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_arg19 : FVec F S512x1024 .f32) (main_arg20 : FVec F S512 .f32) (main_arg21 : FVec F S341x512 .f32) (main_arg22 : FVec F S341 .f32) (main_arg23 : FVec F S512x341 .f32) (main_arg24 : FVec F S512 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_arg19 : FVec F S512x1024 .f32) (main_arg20 : FVec F S512 .f32) (main_arg21 : FVec F S341x512 .f32) (main_arg22 : FVec F S341 .f32) (main_arg23 : FVec F S512x341 .f32) (main_arg24 : FVec F S512 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S512x1024 : Shape := ⟨2, ![512, 1024]⟩
abbrev S512 : Shape := ⟨1, ![512]⟩
abbrev S341x512 : Shape := ⟨2, ![341, 512]⟩
abbrev S341 : Shape := ⟨1, ![341]⟩
abbrev S512x341 : Shape := ⟨2, ![512, 341]⟩
abbrev S4096x1024 : Shape := ⟨2, ![4096, 1024]⟩
abbrev S4096 : Shape := ⟨1, ![4096]⟩
abbrev S1024x4096 : Shape := ⟨2, ![1024, 4096]⟩
abbrev S1024x512 : Shape := ⟨2, ![1024, 512]⟩
abbrev S_ : Shape := ⟨0, ![]⟩
abbrev S384x512 : Shape := ⟨2, ![384, 512]⟩
abbrev S384 : Shape := ⟨1, ![384]⟩
abbrev S512x384 : Shape := ⟨2, ![512, 384]⟩
abbrev S8192x512 : Shape := ⟨2, ![8192, 512]⟩
abbrev S256x1024 : Shape := ⟨2, ![256, 1024]⟩
abbrev S256x512 : Shape := ⟨2, ![256, 512]⟩
abbrev S256x4096 : Shape := ⟨2, ![256, 4096]⟩
abbrev S1x4096 : Shape := ⟨2, ![1, 4096]⟩
abbrev S1x512 : Shape := ⟨2, ![1, 512]⟩
abbrev S256x384 : Shape := ⟨2, ![256, 384]⟩
abbrev S1x384 : Shape := ⟨2, ![1, 384]⟩
abbrev S256 : Shape := ⟨1, ![256]⟩
abbrev S256x1 : Shape := ⟨2, ![256, 1]⟩

abbrev nBuf : Space → Nat
  | .hbm => 53
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S512x1024, .f32⟩
  | .hbm, ⟨20, _⟩ => ⟨S512, .f32⟩
  | .hbm, ⟨21, _⟩ => ⟨S341x512, .f32⟩
  | .hbm, ⟨22, _⟩ => ⟨S341, .f32⟩
  | .hbm, ⟨23, _⟩ => ⟨S512x341, .f32⟩
  | .hbm, ⟨24, _⟩ => ⟨S512, .f32⟩
  | .hbm, ⟨25, _⟩ => ⟨S4096x1024, .f32⟩
  | .hbm, ⟨26, _⟩ => ⟨S4096x1024, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S1024, .f32⟩
  | .hbm, ⟨31, _⟩ => ⟨S4096, .f32⟩
  | .hbm, ⟨32, _⟩ => ⟨S1024x4096, .f32⟩
  | .hbm, ⟨33, _⟩ => ⟨S1024x4096, .bf16⟩
  | .hbm, ⟨34, _⟩ => ⟨S1024x4096, .f32⟩
  | .hbm, ⟨35, _⟩ => ⟨S1024x4096, .bf16⟩
  | .hbm, ⟨36, _⟩ => ⟨S1024x512, .f32⟩
  | .hbm, ⟨37, _⟩ => ⟨S1024x512, .bf16⟩
  | .hbm, ⟨38, _⟩ => ⟨S_, .i32⟩
  | .hbm, ⟨39, _⟩ => ⟨S_, .f32⟩
  | .hbm, ⟨40, _⟩ => ⟨S384x512, .f32⟩
  | .hbm, ⟨41, _⟩ => ⟨S_, .i32⟩
  | .hbm, ⟨42, _⟩ => ⟨S_, .f32⟩
  | .hbm, ⟨43, _⟩ => ⟨S384, .f32⟩
  | .hbm, ⟨44, _⟩ => ⟨S_, .i32⟩
  | .hbm, ⟨45, _⟩ => ⟨S_, .f32⟩
  | .hbm, ⟨46, _⟩ => ⟨S512x384, .f32⟩
  | .hbm, ⟨47, _⟩ => ⟨S512x384, .f32⟩
  | .hbm, ⟨48, _⟩ => ⟨S512x384, .bf16⟩
  | .hbm, ⟨49, _⟩ => ⟨S384x512, .f32⟩
  | .hbm, ⟨50, _⟩ => ⟨S384x512, .bf16⟩
  | .hbm, ⟨51, _⟩ => ⟨S8192x1024, .f32⟩
  | .hbm, ⟨52, _⟩ => ⟨S8192x512, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S4096, .f32⟩
  | .local _ .vmem, ⟨9, _⟩ => ⟨S1024x512, .bf16⟩
  | .local _ .vmem, ⟨10, _⟩ => ⟨S512, .f32⟩
  | .local _ .vmem, ⟨11, _⟩ => ⟨S512x384, .bf16⟩
  | .local _ .vmem, ⟨12, _⟩ => ⟨S384, .f32⟩
  | .local _ .vmem, ⟨13, _⟩ => ⟨S384x512, .bf16⟩
  | .local _ .vmem, ⟨14, _⟩ => ⟨S512, .f32⟩
  | .local _ .vmem, ⟨15, _⟩ => ⟨S256x1024, .f32⟩
  | .local _ .vmem, ⟨16, _⟩ => ⟨S256x1024, .f32⟩
  | .local _ .vmem, ⟨17, _⟩ => ⟨S256x512, .f32⟩
  | .local _ .vmem, ⟨18, _⟩ => ⟨S256x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_c : Ref sig .tc := ⟨.hbm, 38, rfl⟩
abbrev main_call0_v0 : Ref sig .tc := ⟨.hbm, 39, rfl⟩
abbrev main_v13 : Ref sig .tc := ⟨.hbm, 40, rfl⟩
abbrev main_c_0 : Ref sig .tc := ⟨.hbm, 41, rfl⟩
abbrev main_call1_v0 : Ref sig .tc := ⟨.hbm, 42, rfl⟩
abbrev main_v14 : Ref sig .tc := ⟨.hbm, 43, rfl⟩
abbrev main_c_1 : Ref sig .tc := ⟨.hbm, 44, rfl⟩
abbrev main_call2_v0 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20_0 : Ref sig .tc := ⟨.hbm, 51, rfl⟩
abbrev main_v20_1 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S384x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bitsLt_bf16_f32 : FTy.bits .bf16 < FTy.bits .f32
  transposes_S512x1024_S1024x512_1_0 : S512x1024.Transposes [1, 0] S1024x512
  pads_S341x512_S384x512_0430_000 : S341x512.Pads (![0, 0] : Fin 2 → Nat) ![43, 0] ![0, 0] S384x512
  h_S_ : 0 < S_.numel
  pads_S341_S384_0430 : S341.Pads (![0] : Fin 1 → Nat) ![43] ![0] S384
  pads_S512x341_S512x384_000_0430 : S512x341.Pads (![0, 0] : Fin 2 → Nat) ![0, 43] ![0, 0] S512x384
  transposes_S384x512_S512x384_1_0 : S384x512.Transposes [1, 0] S512x384
  transposes_S512x384_S384x512_1_0 : S512x384.Transposes [1, 0] S384x512
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  inb_S512x384_S512x384_0_0 : ∀ a, (![0, 0] : Fin 2 → Nat) a + S512x384.size a ≤ S512x384.size a
  h_S512x384 : 0 < S512x384.numel
  shapeCasts_S512x384_S512x384 : S512x384.ShapeCasts S512x384
  inb_S384_S384_0 : ∀ a, (![0] : Fin 1 → Nat) a + S384.size a ≤ S384.size a
  h_S384 : 0 < S384.numel
  shapeCasts_S384_S384 : S384.ShapeCasts S384
  shapeCasts_S384_S1x384 : S384.ShapeCasts S1x384
  broadcasts_S1x384_S256x384 : S1x384.Broadcasts S256x384
  inb_S384x512_S384x512_0_0 : ∀ a, (![0, 0] : Fin 2 → Nat) a + S384x512.size a ≤ S384x512.size a
  h_S384x512 : 0 < S384x512.numel
  shapeCasts_S384x512_S384x512 : S384x512.ShapeCasts S384x512
  reduces_S256x512_S256 : S256x512.Reduces [1] S256
  shapeCasts_S256_S256x1 : S256.ShapeCasts S256x1
  broadcasts_S256x1_S256x512 : S256x1.Broadcasts S256x512
  inb_S256x512_S256x512_0_0 : ∀ a, (![0, 0] : Fin 2 → Nat) a + S256x512.size a ≤ S256x512.size a
  h_S256x512 : 0 < S256x512.numel
  dot_S256x1024_S1024x4096_S256x4096_1_0_0_1_n_n_wf : DotDims.WF S256x1024 S1024x4096 S256x4096 [1] [0] [0] [1] [] []
  dot_S256x1024_S1024x512_S256x512_1_0_0_1_n_n_wf : DotDims.WF S256x1024 S1024x512 S256x512 [1] [0] [0] [1] [] []
  dot_S256x512_S512x384_S256x384_1_0_0_1_n_n_wf : DotDims.WF S256x512 S512x384 S256x384 [1] [0] [0] [1] [] []
  dot_S256x384_S384x512_S256x512_1_0_0_1_n_n_wf : DotDims.WF S256x384 S384x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S4096.size a
  hwx0_5 : ∀ i : grid0.Coords, EltTy.bits .f32 = 32 ∨ (Rect.block (s := S4096) S4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S1024x512.size a
  hwx0_6 : ∀ i : grid0.Coords, EltTy.bits .bf16 = 32 ∨ (Rect.block (s := S1024x512) S1024x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x384.size a ≤ S512x384.size a
  hwx0_8 : ∀ i : grid0.Coords, EltTy.bits .bf16 = 32 ∨ (Rect.block (s := S512x384) S512x384.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S384.size a ≤ S384.size a
  hwx0_9 : ∀ i : grid0.Coords, EltTy.bits .f32 = 32 ∨ (Rect.block (s := S384) S384.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S384x512.size a ≤ S384x512.size a
  hwx0_10 : ∀ i : grid0.Coords, EltTy.bits .bf16 = 32 ∨ (Rect.block (s := S384x512) S384x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S512.size a
  hwx0_11 : ∀ i : grid0.Coords, EltTy.bits .f32 = 32 ∨ (Rect.block (s := S512) S512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x1024.size a ≤ S8192x1024.size a
  hwx0_12 : ∀ i : grid0.Coords, EltTy.bits .f32 = 32 ∨ (Rect.block (s := S8192x1024) S256x1024.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x512.size a ≤ S8192x512.size a
  hwx0_13 : ∀ i : grid0.Coords, EltTy.bits .f32 = 32 ∨ (Rect.block (s := S8192x512) S256x512.size (cc0_transform_13 i) (hinb0_13 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x512_S512x384_S256x384_1_0_0_1_n_n : DotDims S256x512 S512x384 S256x384 where
  lhsContracting := [1]
  rhsContracting := [0]
  lhsNonContracting := [0]
  rhsNonContracting := [1]
  lhsBatch := []
  rhsBatch := []
  wf := dot_S256x512_S512x384_S256x384_1_0_0_1_n_n_wf
def dot_S256x384_S384x512_S256x512_1_0_0_1_n_n : DotDims S256x384 S384x512 S256x512 where
  lhsContracting := [1]
  rhsContracting := [0]
  lhsNonContracting := [0]
  rhsNonContracting := [1]
  lhsBatch := []
  rhsBatch := []
  wf := dot_S256x384_S384x512_S256x512_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1024x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg20) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S512x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v19) S384x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg24) S512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v20_0) S256x1024.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v20_1) S256x512.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S512x1024 : Shape := ⟨2, ![512, 1024]⟩
abbrev S512 : Shape := ⟨1, ![512]⟩
abbrev S341x512 : Shape := ⟨2, ![341, 512]⟩
abbrev S341 : Shape := ⟨1, ![341]⟩
abbrev S512x341 : Shape := ⟨2, ![512, 341]⟩
abbrev S1x1024 : Shape := ⟨2, ![1, 1024]⟩
abbrev S_ : Shape := ⟨0, ![]⟩
abbrev S1024x512 : Shape := ⟨2, ![1024, 512]⟩
abbrev S8192x512 : Shape := ⟨2, ![8192, 512]⟩
abbrev S1x512 : Shape := ⟨2, ![1, 512]⟩
abbrev S8192x341 : Shape := ⟨2, ![8192, 341]⟩
abbrev S1x341 : Shape := ⟨2, ![1, 341]⟩
abbrev S8192 : Shape := ⟨1, ![8192]⟩
abbrev S8192x1 : Shape := ⟨2, ![8192, 1]⟩

abbrev nBuf : Space → Nat
  | .hbm => 133
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S1024x1024, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S1024x1024, .f32⟩
  | 10 => ⟨S1024, .f32⟩
  | 11 => ⟨S1024x1024, .f32⟩
  | 12 => ⟨S1024, .f32⟩
  | 13 => ⟨S1024x1024, .f32⟩
  | 14 => ⟨S1024, .f32⟩
  | 15 => ⟨S1024x1024, .f32⟩
  | 16 => ⟨S1024, .f32⟩
  | 17 => ⟨S1024x1024, .f32⟩
  | 18 => ⟨S1024, .f32⟩
  | 19 => ⟨S512x1024, .f32⟩
  | 20 => ⟨S512, .f32⟩
  | 21 => ⟨S341x512, .f32⟩
  | 22 => ⟨S341, .f32⟩
  | 23 => ⟨S512x341, .f32⟩
  | 24 => ⟨S512, .f32⟩
  | 25 => ⟨S1024x1024, .f32⟩
  | 26 => ⟨S8192x1024, .f32⟩
  | 27 => ⟨S1x1024, .f32⟩
  | 28 => ⟨S8192x1024, .f32⟩
  | 29 => ⟨S8192x1024, .f32⟩
  | 30 => ⟨S1024x1024, .f32⟩
  | 31 => ⟨S8192x1024, .f32⟩
  | 32 => ⟨S1x1024, .f32⟩
  | 33 => ⟨S8192x1024, .f32⟩
  | 34 => ⟨S8192x1024, .f32⟩
  | 35 => ⟨S8192x1024, .f32⟩
  | 36 => ⟨S8192x1024, .f32⟩
  | 37 => ⟨S8192x1024, .f32⟩
  | 38 => ⟨S_, .f32⟩
  | 39 => ⟨S8192x1024, .f32⟩
  | 40 => ⟨S8192x1024, .f32⟩
  | 41 => ⟨S_, .f32⟩
  | 42 => ⟨S8192x1024, .f32⟩
  | 43 => ⟨S8192x1024, .f32⟩
  | 44 => ⟨S1024x1024, .f32⟩
  | 45 => ⟨S8192x1024, .f32⟩
  | 46 => ⟨S1x1024, .f32⟩
  | 47 => ⟨S8192x1024, .f32⟩
  | 48 => ⟨S8192x1024, .f32⟩
  | 49 => ⟨S1024x1024, .f32⟩
  | 50 => ⟨S8192x1024, .f32⟩
  | 51 => ⟨S1x1024, .f32⟩
  | 52 => ⟨S8192x1024, .f32⟩
  | 53 => ⟨S8192x1024, .f32⟩
  | 54 => ⟨S8192x1024, .f32⟩
  | 55 => ⟨S8192x1024, .f32⟩
  | 56 => ⟨S8192x1024, .f32⟩
  | 57 => ⟨S_, .f32⟩
  | 58 => ⟨S8192x1024, .f32⟩
  | 59 => ⟨S8192x1024, .f32⟩
  | 60 => ⟨S_, .f32⟩
  | 61 => ⟨S8192x1024, .f32⟩
  | 62 => ⟨S8192x1024, .f32⟩
  | 63 => ⟨S1024x1024, .f32⟩
  | 64 => ⟨S8192x1024, .f32⟩
  | 65 => ⟨S1x1024, .f32⟩
  | 66 => ⟨S8192x1024, .f32⟩
  | 67 => ⟨S8192x1024, .f32⟩
  | 68 => ⟨S1024x1024, .f32⟩
  | 69 => ⟨S8192x1024, .f32⟩
  | 70 => ⟨S1x1024, .f32⟩
  | 71 => ⟨S8192x1024, .f32⟩
  | 72 => ⟨S8192x1024, .f32⟩
  | 73 => ⟨S8192x1024, .f32⟩
  | 74 => ⟨S8192x1024, .f32⟩
  | 75 => ⟨S1024x1024, .f32⟩
  | 76 => ⟨S8192x1024, .f32⟩
  | 77 => ⟨S1x1024, .f32⟩
  | 78 => ⟨S8192x1024, .f32⟩
  | 79 => ⟨S8192x1024, .f32⟩
  | 80 => ⟨S1024x1024, .f32⟩
  | 81 => ⟨S8192x1024, .f32⟩
  | 82 => ⟨S1x1024, .f32⟩
  | 83 => ⟨S8192x1024, .f32⟩
  | 84 => ⟨S8192x1024, .f32⟩
  | 85 => ⟨S8192x1024, .f32⟩
  | 86 => ⟨S8192x1024, .f32⟩
  | 87 => ⟨S8192x1024, .f32⟩
  | 88 => ⟨S_, .f32⟩
  | 89 => ⟨S8192x1024, .f32⟩
  | 90 => ⟨S8192x1024, .f32⟩
  | 91 => ⟨S_, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S8192x1024, .f32⟩
  | 98 => ⟨S8192x1024, .f32⟩
  | 99 => ⟨S1024x512, .f32⟩
  | 100 => ⟨S8192x512, .f32⟩
  | 101 => ⟨S1x512, .f32⟩
  | 102 => ⟨S8192x512, .f32⟩
  | 103 => ⟨S8192x512, .f32⟩
  | 104 => ⟨S8192x512, .f32⟩
  | 105 => ⟨S512x341, .f32⟩
  | 106 => ⟨S8192x341, .f32⟩
  | 107 => ⟨S1x341, .f32⟩
  | 108 => ⟨S8192x341, .f32⟩
  | 109 => ⟨S8192x341, .f32⟩
  | 110 => ⟨S8192x341, .f32⟩
  | 111 => ⟨S341x512, .f32⟩
  | 112 => ⟨S8192x512, .f32⟩
  | 113 => ⟨S1x512, .f32⟩
  | 114 => ⟨S8192x512, .f32⟩
  | 115 => ⟨S8192x512, .f32⟩
  | 116 => ⟨S_, .f32⟩
  | 117 => ⟨S8192x512, .f32⟩
  | 118 => ⟨S8192x512, .f32⟩
  | 119 => ⟨S_, .f32⟩
  | 120 => ⟨S8192, .f32⟩
  | 121 => ⟨S_, .f32⟩
  | 122 => ⟨S8192, .f32⟩
  | 123 => ⟨S8192, .f32⟩
  | 124 => ⟨S8192x1, .f32⟩
  | 125 => ⟨S8192x512, .f32⟩
  | 126 => ⟨S8192x512, .f32⟩
  | 127 => ⟨S8192x512, .f32⟩
  | _ => ⟨S8192x1024, .f32⟩

abbrev hbmTy0_1 (i : Nat) : BufTy := match i % 128 with
  | 0 => ⟨S_, .f32⟩
  | 1 => ⟨S8192, .f32⟩
  | 2 => ⟨S8192x1, .f32⟩
  | 3 => ⟨S8192x512, .f32⟩
  | 4 => ⟨S8192x512, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst : Ref sig .tc := ⟨.hbm, 38, rfl⟩
abbrev main_v13 : Ref sig .tc := ⟨.hbm, 39, rfl⟩
abbrev main_v14 : Ref sig .tc := ⟨.hbm, 40, rfl⟩
abbrev main_cst_0 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_1 : Ref sig .tc := ⟨.hbm, 57, rfl⟩
abbrev main_v30 : Ref sig .tc := ⟨.hbm, 58, rfl⟩
abbrev main_v31 : Ref sig .tc := ⟨.hbm, 59, rfl⟩
abbrev main_cst_2 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_3 : Ref sig .tc := ⟨.hbm, 88, rfl⟩
abbrev main_v59 : Ref sig .tc := ⟨.hbm, 89, rfl⟩
abbrev main_v60 : Ref sig .tc := ⟨.hbm, 90, rfl⟩
abbrev main_cst_4 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_5 : Ref sig .tc := ⟨.hbm, 116, rfl⟩
abbrev main_v85 : Ref sig .tc := ⟨.hbm, 117, rfl⟩
abbrev main_v86 : Ref sig .tc := ⟨.hbm, 118, rfl⟩
abbrev main_cst_6 : Ref sig .tc := ⟨.hbm, 119, rfl⟩
abbrev main_v87 : Ref sig .tc := ⟨.hbm, 120, rfl⟩
abbrev main_cst_7 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_8 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  transposes_S512x1024_S1024x512_1_0 : S512x1024.Transposes [1, 0] S1024x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  transposes_S341x512_S512x341_1_0 : S341x512.Transposes [1, 0] S512x341
  bcast_S341_S1x341_1 : S341.BroadcastsInDim S1x341 (![1] : Fin 1 → Fin S1x341.rank)
  bcast_S1x341_S8192x341_0_1 : S1x341.BroadcastsInDim S8192x341 (![0, 1] : Fin 2 → Fin S8192x341.rank)
  transposes_S512x341_S341x512_1_0 : S512x341.Transposes [1, 0] S341x512
  bcast_S_S8192x512 : S_.BroadcastsInDim S8192x512 (![] : Fin 0 → Fin S8192x512.rank)
  reducesTo_S8192x512_S8192_d1 : S8192x512.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  dot_S8192x1024_S1024x1024_S8192x1024_1_0_0_1_n_n_wf : DotDims.WF S8192x1024 S1024x1024 S8192x1024 [1] [0] [0] [1] [] []
  dot_S8192x1024_S1024x512_S8192x512_1_0_0_1_n_n_wf : DotDims.WF S8192x1024 S1024x512 S8192x512 [1] [0] [0] [1] [] []
  dot_S8192x512_S512x341_S8192x341_1_0_0_1_n_n_wf : DotDims.WF S8192x512 S512x341 S8192x341 [1] [0] [0] [1] [] []
  dot_S8192x341_S341x512_S8192x512_1_0_0_1_n_n_wf : DotDims.WF S8192x341 S341x512 S8192x512 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S8192x512_S512x341_S8192x341_1_0_0_1_n_n : DotDims S8192x512 S512x341 S8192x341 where
  lhsContracting := [1]
  rhsContracting := [0]
  lhsNonContracting := [0]
  rhsNonContracting := [1]
  lhsBatch := []
  rhsBatch := []
  wf := dot_S8192x512_S512x341_S8192x341_1_0_0_1_n_n_wf
def dot_S8192x341_S341x512_S8192x512_1_0_0_1_n_n : DotDims S8192x341 S341x512 S8192x512 where
  lhsContracting := [1]
  rhsContracting := [0]
  lhsNonContracting := [0]
  rhsNonContracting := [1]
  lhsBatch := []
  rhsBatch := []
  wf := dot_S8192x341_S341x512_S8192x512_1_0_0_1_n_n_wf

class Facts : Prop extends Facts₀ where

variable [Facts]
-- ==== Proof.FrameDefsKernel.lean ====
/- The frame of `Kernel`, first half: the arrays' contents where the one region is entered (`V`), each window's
   block at a grid point (`iblk`), what the body leaves in each output buffer (`out0_12`, `out0_13`), and the proof
   data of the pipeline (`dats`). -/
import proofs.«171681_j56238301774012_2_alg».proof.Proof.Gen.Kernel.Launch
import proofs.«171681_j56238301774012_2_alg».proof.Proof.Gen.Kernel.Skeleton
import proofs.«171681_j56238301774012_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the seven stretches of host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- @main up to the region: the stretches of host operations in order, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg19`: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg20`: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg21`: the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg22`: the region finds it as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg23`: the region finds it as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg24`: the region finds it as launched. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the
    block index has not moved), for any proof data over `V` whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, the
    block index has not moved), for any proof data over `V` whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (unfetched, the
    block index has not moved), for any proof data over `V` whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (unfetched, the
    block index has not moved), for any proof data over `V` whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (unfetched, the
    block index has not moved), for any proof data over `V` whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (unfetched, the
    block index has not moved), for any proof data over `V` whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (unfetched, the
    block index has not moved), for any proof data over `V` whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (unfetched, the
    block index has not moved), for any proof data over `V` whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not (unfetched, the
    block index has not moved), for any proof data over `V` whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not (unfetched, the
    block index has not moved), for any proof data over `V` whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not (unfetched, the
    block index has not moved), for any proof data over `V` whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not (unfetched, the
    block index has not moved), for any proof data over `V` whose body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, for any proof data whose arrays are the region-entry contents: every
    argument array ends as launched — an array a window stages by the window's clause, any other by the clause for
    the untouched buffers, each then because no host operation writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).1 7).trans (((dats 0 c).arrAt_in 7 rfl _).trans ((hA c 7).trans (V_main_arg20 m c))),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).1 11).trans (((dats 0 c).arrAt_in 11 rfl _).trans ((hA c 11).trans (V_main_arg24 m c)))⟩) h

/-! ## The body's accesses: each buffer whole -/

abbrev r0_0 : Rect S256x1024 := Rect.unit (s := S256x1024) ![0, 0] S256x1024.size inb_S256x1024_S256x1024_0_0
abbrev r0_1 : Rect S1024x4096 := Rect.unit (s := S1024x4096) ![0, 0] S1024x4096.size inb_S1024x4096_S1024x4096_0_0
abbrev r0_2 : Rect S4096 := Rect.unit (s := S4096) ![0] S4096.size inb_S4096_S4096_0
abbrev r0_3 : Rect S1024x512 := Rect.unit (s := S1024x512) ![0, 0] S1024x512.size inb_S1024x512_S1024x512_0_0
abbrev r0_4 : Rect S512 := Rect.unit (s := S512) ![0] S512.size inb_S512_S512_0
abbrev r0_5 : Rect S512x384 := Rect.unit (s := S512x384) ![0, 0] S512x384.size inb_S512x384_S512x384_0_0
abbrev r0_6 : Rect S384 := Rect.unit (s := S384) ![0] S384.size inb_S384_S384_0
abbrev r0_7 : Rect S384x512 := Rect.unit (s := S384x512) ![0, 0] S384x512.size inb_S384x512_S384x512_0_0
abbrev r0_8 : Rect S256x512 := Rect.unit (s := S256x512) ![0, 0] S256x512.size inb_S256x512_S256x512_0_0

/-! ## What the body leaves in each output window's buffer -/

/-- Window 12's staging buffer after the body: its one store, of the whole buffer, with the new hidden state
    computed from the blocks of windows 0–5. -/
def out0_12 (x0 x1 x2 : Vec F S256x1024 .f32) (x3 x4 : Vec F S1024x4096 .bf16) (x5 : Vec F S4096 .f32) : Vec F S256x1024 .f32 :=
  View.canon [⟨r0_0, k0_pay2 (View.ld x0 r0_0) (View.ld x1 r0_0) (View.ld x2 r0_0) (View.ld x3 r0_1) (View.ld x4 r0_1) (View.ld x5 r0_2)⟩]

/-- Window 13's staging buffer after the body: its one store, of the whole buffer, with the row-wise softmax
    computed from the blocks of windows 0–11. -/
def out0_13 (x0 x1 x2 : Vec F S256x1024 .f32) (x3 x4 : Vec F S1024x4096 .bf16) (x5 : Vec F S4096 .f32)
    (x6 : Vec F S1024x512 .bf16) (x7 : Vec F S512 .f32) (x8 : Vec F S512x384 .bf16) (x9 : Vec F S384 .f32)
    (x10 : Vec F S384x512 .bf16) (x11 : Vec F S512 .f32) : Vec F S256x512 .f32 :=
  View.canon [⟨r0_8, k0_pay1 (k0_pay3 (View.ld x0 r0_0) (View.ld x1 r0_0) (View.ld x2 r0_0) (View.ld x3 r0_1) (View.ld x4 r0_1) (View.ld x5 r0_2) (View.ld x6 r0_3) (View.ld x7 r0_4))
    (View.ld x8 r0_5) (View.ld x9 r0_6) (View.ld x10 r0_7) (View.ld x11 r0_4)⟩]

/-! ## The pipeline's proof data -/

/-- The proof data of the one pipeline on core `c`: the arrays as the region finds them; after the body at point
    `t` each input's buffer at its block and each output's at `out0_W` of the input blocks; the scoped rest and the
    generator register untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out0_12 (iblk m c 0 t) (iblk m c 1 t) (iblk m c 2 t) (iblk m c 3 t) (iblk m c 4 t) (iblk m c 5 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

end Cert.Kernel.Gen.Fr

end
-- ==== Proof.FrameKernel.lean ====
/- The frame of `Kernel`, second half: the body's triple, the body obligation at every grid point, the run of
   @main to the library's frame post, and the frame claim at any `F`. -/
import proofs.«171681_j56238301774012_2_alg».proof.Proof.FrameDefsKernel

set_option maxRecDepth 16384

noncomputable section

namespace Cert.Kernel.Gen.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each output's one store covers its buffer -/

theorem cover0_12 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

theorem cover0_13 (p0 : Vec F S256x512 .f32) (y : S256x512.Idx) :
    ∃ pc ∈ ([⟨r0_8, p0⟩] : List (View.Piece (Elt F) S256x512 .f32)), y ∈ pc.1.set :=
  View.cover_of_tiled [⟨r0_8, p0⟩] S256x512.size (by rfl) y

/-! ## The body's triple -/

set_option maxHeartbeats 4000000 in
/-- The kernel body on whole staging memrefs, the inputs' at contents `xW` and the outputs' at anything, runs to the
    continuation holding the inputs' as they were and each output's at `out0_W` of the inputs': every load is of a
    whole buffer, the load of an output buffer right before its store reads whatever was there and its value is
    unused, and each output buffer is then overwritten whole. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S4096 .f32) (harg6 : arg6.IsWhole) (arg7 : Memref sig .tc .vmem S1024x512 .bf16) (harg7 : arg7.IsWhole) (arg8 : Memref sig .tc .vmem S512 .f32) (harg8 : arg8.IsWhole) (arg9 : Memref sig .tc .vmem S512x384 .bf16) (harg9 : arg9.IsWhole) (arg10 : Memref sig .tc .vmem S384 .f32) (harg10 : arg10.IsWhole) (arg11 : Memref sig .tc .vmem S384x512 .bf16) (harg11 : arg11.IsWhole) (arg12 : Memref sig .tc .vmem S512 .f32) (harg12 : arg12.IsWhole) (arg13 : Memref sig .tc .vmem S256x1024 .f32) (harg13 : arg13.IsWhole) (arg14 : Memref sig .tc .vmem S256x512 .f32) (harg14 : arg14.IsWhole)
    (x0 : Vec F S256x1024 .f32) (x1 : Vec F S256x1024 .f32) (x2 : Vec F S256x1024 .f32) (x3 : Vec F S1024x4096 .bf16) (x4 : Vec F S1024x4096 .bf16) (x5 : Vec F S4096 .f32) (x6 : Vec F S1024x512 .bf16) (x7 : Vec F S512 .f32) (x8 : Vec F S512x384 .bf16) (x9 : Vec F S384 .f32) (x10 : Vec F S384x512 .bf16) (x11 : Vec F S512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5) ∗ owns (c : Thread nD τ) arg14 fullShare (out0_13 x0 x1 x2 x3 x4 x5 x6 x7 x8 x9 x10 x11)) -∗ K ⟨⟩))
      ⊢ wp frame (wpE (defs₀ (F := F)) Variants.none c none) E (cc0__lstm_decoder_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__lstm_decoder_kernel_eq_skeleton]; unfold cc0__lstm_decoder_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (cover0_12 _)
  iexists _; isplitr
  swap; · iexact H13
  ipureintro
  exact View.read_writes_eq_canon _ _ _ (cover0_13 _)

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 1000000 in
/-- The body at any point: the inputs' memrefs hold their blocks, so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- For any values, from any memory with zero counters: every weakly fair execution of @main on the TensorCores
    terminates, and every final state has every array of the pipeline at what the library computes from the proof
    data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  frame_of m ρ (dats m) (A_eq m) (run_main m ρ)

end Cert.Kernel.Gen.Fr

end
-- ==== Proof.FrameDefsKernelIdeal.lean ====
/- The frame of `KernelIdeal`, first half: the arrays' contents where the one region is entered (`V`), each window's
   block at a grid point (`iblk`), what the body leaves in each output buffer (`out0_12`, `out0_13`), and the proof
   data of the pipeline (`dats`). -/
import proofs.«171681_j56238301774012_2_alg».proof.Proof.Gen.KernelIdeal.Launch
import proofs.«171681_j56238301774012_2_alg».proof.Proof.Gen.KernelIdeal.Skeleton
import proofs.«171681_j56238301774012_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the seven stretches of host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- @main up to the region: the stretches of host operations in order, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg18`: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg19`: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg20`: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg21`: the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg22`: the region finds it as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg23`: the region finds it as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg24`: the region finds it as launched. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the
    block index has not moved), for any proof data over `V` whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, the
    block index has not moved), for any proof data over `V` whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (unfetched, the
    block index has not moved), for any proof data over `V` whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (unfetched, the
    block index has not moved), for any proof data over `V` whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (unfetched, the
    block index has not moved), for any proof data over `V` whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (unfetched, the
    block index has not moved), for any proof data over `V` whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (unfetched, the
    block index has not moved), for any proof data over `V` whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (unfetched, the
    block index has not moved), for any proof data over `V` whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not (unfetched, the
    block index has not moved), for any proof data over `V` whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not (unfetched, the
    block index has not moved), for any proof data over `V` whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not (unfetched, the
    block index has not moved), for any proof data over `V` whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not (unfetched, the
    block index has not moved), for any proof data over `V` whose body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, for any proof data whose arrays are the region-entry contents: every
    argument array ends as launched — an array a window stages by the window's clause, any other by the clause for
    the untouched buffers, each then because no host operation writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).1 7).trans (((dats 0 c).arrAt_in 7 rfl _).trans ((hA c 7).trans (V_main_arg20 m c))),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).1 11).trans (((dats 0 c).arrAt_in 11 rfl _).trans ((hA c 11).trans (V_main_arg24 m c)))⟩) h

/-! ## The body's accesses: each buffer whole -/

abbrev r0_0 : Rect S256x1024 := Rect.unit (s := S256x1024) ![0, 0] S256x1024.size inb_S256x1024_S256x1024_0_0
abbrev r0_1 : Rect S1024x4096 := Rect.unit (s := S1024x4096) ![0, 0] S1024x4096.size inb_S1024x4096_S1024x4096_0_0
abbrev r0_2 : Rect S4096 := Rect.unit (s := S4096) ![0] S4096.size inb_S4096_S4096_0
abbrev r0_3 : Rect S1024x512 := Rect.unit (s := S1024x512) ![0, 0] S1024x512.size inb_S1024x512_S1024x512_0_0
abbrev r0_4 : Rect S512 := Rect.unit (s := S512) ![0] S512.size inb_S512_S512_0
abbrev r0_5 : Rect S512x384 := Rect.unit (s := S512x384) ![0, 0] S512x384.size inb_S512x384_S512x384_0_0
abbrev r0_6 : Rect S384 := Rect.unit (s := S384) ![0] S384.size inb_S384_S384_0
abbrev r0_7 : Rect S384x512 := Rect.unit (s := S384x512) ![0, 0] S384x512.size inb_S384x512_S384x512_0_0
abbrev r0_8 : Rect S256x512 := Rect.unit (s := S256x512) ![0, 0] S256x512.size inb_S256x512_S256x512_0_0

/-! ## What the body leaves in each output window's buffer -/

/-- Window 12's staging buffer after the body: its one store, of the whole buffer, with the new hidden state
    computed from the blocks of windows 0–5. -/
def out0_12 (x0 x1 x2 : Vec F S256x1024 .f32) (x3 x4 : Vec F S1024x4096 .bf16) (x5 : Vec F S4096 .f32) : Vec F S256x1024 .f32 :=
  View.canon [⟨r0_0, k0_pay2 (View.ld x0 r0_0) (View.ld x1 r0_0) (View.ld x2 r0_0) (View.ld x3 r0_1) (View.ld x4 r0_1) (View.ld x5 r0_2)⟩]

/-- Window 13's staging buffer after the body: its one store, of the whole buffer, with the row-wise softmax
    computed from the blocks of windows 0–11. -/
def out0_13 (x0 x1 x2 : Vec F S256x1024 .f32) (x3 x4 : Vec F S1024x4096 .bf16) (x5 : Vec F S4096 .f32)
    (x6 : Vec F S1024x512 .bf16) (x7 : Vec F S512 .f32) (x8 : Vec F S512x384 .bf16) (x9 : Vec F S384 .f32)
    (x10 : Vec F S384x512 .bf16) (x11 : Vec F S512 .f32) : Vec F S256x512 .f32 :=
  View.canon [⟨r0_8, k0_pay1 (k0_pay3 (View.ld x0 r0_0) (View.ld x1 r0_0) (View.ld x2 r0_0) (View.ld x3 r0_1) (View.ld x4 r0_1) (View.ld x5 r0_2) (View.ld x6 r0_3) (View.ld x7 r0_4))
    (View.ld x8 r0_5) (View.ld x9 r0_6) (View.ld x10 r0_7) (View.ld x11 r0_4)⟩]

/-! ## The pipeline's proof data -/

/-- The proof data of the one pipeline on core `c`: the arrays as the region finds them; after the body at point
    `t` each input's buffer at its block and each output's at `out0_W` of the input blocks; the scoped rest and the
    generator register untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out0_12 (iblk m c 0 t) (iblk m c 1 t) (iblk m c 2 t) (iblk m c 3 t) (iblk m c 4 t) (iblk m c 5 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

end Cert.KernelIdeal.Gen.Fr

end
-- ==== Proof.FrameKernelIdeal.lean ====
/- The frame of `KernelIdeal`, second half: the body's triple, the body obligation at every grid point, the run of
   @main to the library's frame post, and the frame claim at any `F`. -/
import proofs.«171681_j56238301774012_2_alg».proof.Proof.FrameDefsKernelIdeal

set_option maxRecDepth 16384

noncomputable section

namespace Cert.KernelIdeal.Gen.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each output's one store covers its buffer -/

theorem cover0_12 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

theorem cover0_13 (p0 : Vec F S256x512 .f32) (y : S256x512.Idx) :
    ∃ pc ∈ ([⟨r0_8, p0⟩] : List (View.Piece (Elt F) S256x512 .f32)), y ∈ pc.1.set :=
  View.cover_of_tiled [⟨r0_8, p0⟩] S256x512.size (by rfl) y

/-! ## The body's triple -/

set_option maxHeartbeats 4000000 in
/-- The kernel body on whole staging memrefs, the inputs' at contents `xW` and the outputs' at anything, runs to the
    continuation holding the inputs' as they were and each output's at `out0_W` of the inputs': every load is of a
    whole buffer, the load of an output buffer right before its store reads whatever was there and its value is
    unused, and each output buffer is then overwritten whole. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1024x4096 .bf16) (harg4 : arg4.IsWhole) (arg5 : Memref sig .tc .vmem S1024x4096 .bf16) (harg5 : arg5.IsWhole) (arg6 : Memref sig .tc .vmem S4096 .f32) (harg6 : arg6.IsWhole) (arg7 : Memref sig .tc .vmem S1024x512 .bf16) (harg7 : arg7.IsWhole) (arg8 : Memref sig .tc .vmem S512 .f32) (harg8 : arg8.IsWhole) (arg9 : Memref sig .tc .vmem S512x384 .bf16) (harg9 : arg9.IsWhole) (arg10 : Memref sig .tc .vmem S384 .f32) (harg10 : arg10.IsWhole) (arg11 : Memref sig .tc .vmem S384x512 .bf16) (harg11 : arg11.IsWhole) (arg12 : Memref sig .tc .vmem S512 .f32) (harg12 : arg12.IsWhole) (arg13 : Memref sig .tc .vmem S256x1024 .f32) (harg13 : arg13.IsWhole) (arg14 : Memref sig .tc .vmem S256x512 .f32) (harg14 : arg14.IsWhole)
    (x0 : Vec F S256x1024 .f32) (x1 : Vec F S256x1024 .f32) (x2 : Vec F S256x1024 .f32) (x3 : Vec F S1024x4096 .bf16) (x4 : Vec F S1024x4096 .bf16) (x5 : Vec F S4096 .f32) (x6 : Vec F S1024x512 .bf16) (x7 : Vec F S512 .f32) (x8 : Vec F S512x384 .bf16) (x9 : Vec F S384 .f32) (x10 : Vec F S384x512 .bf16) (x11 : Vec F S512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5) ∗ owns (c : Thread nD τ) arg14 fullShare (out0_13 x0 x1 x2 x3 x4 x5 x6 x7 x8 x9 x10 x11)) -∗ K ⟨⟩))
      ⊢ wp frame (wpE (defs₀ (F := F)) Variants.none c none) E (cc0__lstm_decoder_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__lstm_decoder_kernel_eq_skeleton]; unfold cc0__lstm_decoder_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (cover0_12 _)
  iexists _; isplitr
  swap; · iexact H13
  ipureintro
  exact View.read_writes_eq_canon _ _ _ (cover0_13 _)

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 1000000 in
/-- The body at any point: the inputs' memrefs hold their blocks, so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- For any values, from any memory with zero counters: every weakly fair execution of @main on the TensorCores
    terminates, and every final state has every array of the pipeline at what the library computes from the proof
    data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  frame_of m ρ (dats m) (A_eq m) (run_main m ρ)

end Cert.KernelIdeal.Gen.Fr

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.LibKeepdims.lean ====
/-
  The two "keepdims" column forms of a row reduction's result, read at an index.

  A length-a vector cast to an a by 1 column reads, at (i, u), the vector at i; an a by 1 column broadcast to a by b
  reads, at (p, c), the column at p. Together: a per-row quantity (a row's maximum, a row's sum) spread back over the
  row's entries.
-/
import Idealize.ShloMosaic.Lib.Pipeline.Value
import Idealize.ShloMosaic.Lib.ValueIdx

namespace Idealize.ShloMosaic.Keepdims

open Idealize.ShloMosaic Idealize.ShloMosaic.ValueIdx Idealize.ShloMosaic.Pipeline

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a per-row quantity spread over the row. -/
theorem column_spread {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Keepdims
-- ==== Proof.LibRowMax.lean ====
/-
  A row's maximum read at an index, at the ideal instance.

  For an a by b array, a kernel's reduction with maximum along axis 1 holds, at row i, the fold of max over the
  column coordinate j of the entries at (i, j), started from the accumulator's value. The fold is over the whole
  finite type of columns, in no particular order.
-/
import Idealize.ShloMosaic.PureOps.Ideal.Laws
import Idealize.ShloMosaic.Lib.ValueIdx

noncomputable section

namespace Idealize.ShloMosaic.RowMax

open Idealize.ShloMosaic Idealize.ShloMosaic.ValueIdx

variable {a b : ℕ} {φ : FTy}

/-- The index a reduction along axis 1 puts back: row i, column j. -/
theorem lift_row (h : (⟨2, ![a, b]⟩ : Shape).Reduces [(1 : Fin 2)] ⟨1, ![a]⟩) (i : Fin a) (j : Fin b) :
    h.lift (ix1 i) j = ix2 i j := by
  funext ax
  apply Fin.ext
  match ax with
  | ⟨0, _⟩ => rfl
  | ⟨1, _⟩ => rfl

/-- A row's maximum, from the accumulator's value. -/
theorem row_max_apply (v : FVec Ideal (⟨2, ![a, b]⟩ : Shape) φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ v acc h hφ hacc (ix1 i)
      = (Finset.univ : Finset (Fin b)).fold max (Ideal.ofBits φ acc) (fun j => v (ix2 i j)) := by
  rw [Ideal.multiReduction_maximumf_single]
  have e : (v ∘ h.lift (ix1 i)) = fun j : Fin b => v (ix2 i j) := funext fun j => congrArg v (lift_row h i j)
  rw [e]
  rfl

end Idealize.ShloMosaic.RowMax

end
-- ==== Proof.LibReduceAt.lean ====
/-
  Reductions over one axis read at an index of the result, at the ideal instance, with the reduced index named by
  its coordinates.

  For an a by b array: a row's sum, a row's minimum and a column's maximum (a kernel's vector reductions) are the sum,
  the fold of min and the fold of max over the coordinate that was reduced away, of the array's entries at (i, j).
  For an n by a by b array the host's one-operand reduce with a commutative associative operation, along the last axis
  or along the middle axis, is likewise the fold from its initial value over that coordinate of the entries at
  (n, i, j). The folds are over the whole finite type of the reduced coordinate, in no particular order.
-/
import Idealize.ShloMosaic.PureOps.Ideal.Laws
import Idealize.ShloMosaic.PureOps.Reduce
import Idealize.ShloMosaic.Lib.ValueIdx

noncomputable section

namespace Idealize.ShloMosaic.ReduceAt

open Idealize.ShloMosaic Idealize.ShloMosaic.ValueIdx

variable {a b n : ℕ} {φ : FTy}

/-! ### Rank 2: the index put back by a reduction along the columns' axis, or along the rows' axis -/

theorem lift_along_row (h : (⟨2, ![a, b]⟩ : Shape).Reduces [(1 : Fin 2)] ⟨1, ![a]⟩) (i : Fin a) (j : Fin b) :
    h.lift (ix1 i) j = ix2 i j := by
  funext ax
  apply Fin.ext
  match ax with
  | ⟨0, _⟩ => rfl
  | ⟨1, _⟩ => rfl

theorem lift_along_col (h : (⟨2, ![a, b]⟩ : Shape).Reduces [(0 : Fin 2)] ⟨1, ![b]⟩) (j : Fin b) (i : Fin a) :
    h.lift (ix1 j) i = ix2 i j := by
  funext ax
  apply Fin.ext
  match ax with
  | ⟨0, _⟩ => rfl
  | ⟨1, _⟩ => rfl

/-- A row's sum. -/
theorem row_sum_apply (v : FVec Ideal (⟨2, ![a, b]⟩ : Shape) φ) (acc : BitVec φ.bits)
    (h : (⟨2, ![a, b]⟩ : Shape).Reduces [(1 : Fin 2)] ⟨1, ![a]⟩) (hφ : FKind.Formats φ) (hacc : acc = FKind.add.neutral φ hφ)
    (i : Fin a) :
    multiReduction .add [(1 : Fin 2)] ⟨1, ![a]⟩ v acc h hφ hacc (ix1 i) = ∑ j : Fin b, v (ix2 i j) :=
  (Ideal.multiReduction_add_single v acc h hφ hacc (ix1 i)).trans
    (Finset.sum_congr rfl fun j _ => congrArg v (lift_along_row h i j))

/-- A column's sum. -/
theorem col_sum_apply (v : FVec Ideal (⟨2, ![a, b]⟩ : Shape) φ) (acc : BitVec φ.bits)
    (h : (⟨2, ![a, b]⟩ : Shape).Reduces [(0 : Fin 2)] ⟨1, ![b]⟩) (hφ : FKind.Formats φ) (hacc : acc = FKind.add.neutral φ hφ)
    (j : Fin b) :
    multiReduction .add [(0 : Fin 2)] ⟨1, ![b]⟩ v acc h hφ hacc (ix1 j) = ∑ i : Fin a, v (ix2 i j) :=
  (Ideal.multiReduction_add_single v acc h hφ hacc (ix1 j)).trans
    (Finset.sum_congr rfl fun i _ => congrArg v (lift_along_col h j i))

/-- A row's minimum, from the accumulator's value. -/
theorem row_min_apply (v : FVec Ideal (⟨2, ![a, b]⟩ : Shape) φ) (acc : BitVec φ.bits)
    (h : (⟨2, ![a, b]⟩ : Shape).Reduces [(1 : Fin 2)] ⟨1, ![a]⟩) (hφ : FKind.Formats φ) (hacc : acc = FKind.minimumf.neutral φ hφ)
    (i : Fin a) :
    multiReduction .minimumf [(1 : Fin 2)] ⟨1, ![a]⟩ v acc h hφ hacc (ix1 i)
      = (Finset.univ : Finset (Fin b)).fold min (Ideal.ofBits φ acc) (fun j => v (ix2 i j)) := by
  rw [multiReduction_minimumf_eq_fold, h.fold_filter_drop_single]
  have e : (v ∘ h.lift (ix1 i)) = fun j : Fin b => v (ix2 i j) := funext fun j => congrArg v (lift_along_row h i j)
  rw [e]
  rfl

/-- A column's maximum, from the accumulator's value. -/
theorem col_max_apply (v : FVec Ideal (⟨2, ![a, b]⟩ : Shape) φ) (acc : BitVec φ.bits)
    (h : (⟨2, ![a, b]⟩ : Shape).Reduces [(0 : Fin 2)] ⟨1, ![b]⟩) (hφ : FKind.Formats φ) (hacc : acc = FKind.maximumf.neutral φ hφ)
    (j : Fin b) :
    multiReduction .maximumf [(0 : Fin 2)] ⟨1, ![b]⟩ v acc h hφ hacc (ix1 j)
      = (Finset.univ : Finset (Fin a)).fold max (Ideal.ofBits φ acc) (fun i => v (ix2 i j)) := by
  rw [Ideal.multiReduction_maximumf_single]
  have e : (v ∘ h.lift (ix1 j)) = fun i : Fin a => v (ix2 i j) := funext fun i => congrArg v (lift_along_col h j i)
  rw [e]
  rfl

/-! ### Rank 3: the host's reduce along the last axis, or along the middle axis -/

theorem lift_along_last (h : (⟨3, ![n, a, b]⟩ : Shape).Reduces [(2 : Fin 3)] ⟨2, ![n, a]⟩) (p : Fin n) (i : Fin a) (j : Fin b) :
    h.lift (ix2 p i) j = ix3 p i j := by
  funext ax
  apply Fin.ext
  match ax with
  | ⟨0, _⟩ => rfl
  | ⟨1, _⟩ => rfl
  | ⟨2, _⟩ => rfl

theorem lift_along_middle (h : (⟨3, ![n, a, b]⟩ : Shape).Reduces [(1 : Fin 3)] ⟨2, ![n, b]⟩) (p : Fin n) (j : Fin b) (i : Fin a) :
    h.lift (ix2 p j) i = ix3 p i j := by
  funext ax
  apply Fin.ext
  match ax with
  | ⟨0, _⟩ => rfl
  | ⟨1, _⟩ => rfl
  | ⟨2, _⟩ => rfl

/-- The host's reduce along the last axis. -/
theorem host_reduce_last_apply {u : Shape} (f : EReal → EReal → EReal) [Std.Commutative f] [Std.Associative f]
    (x : (⟨3, ![n, a, b]⟩ : Shape).Idx → EReal) (init : u.Idx → EReal)
    (h' : (⟨3, ![n, a, b]⟩ : Shape).ReducesTo [(2 : Fin 3)] ⟨2, ![n, a]⟩) (hu : 0 < u.numel)
    (h : (⟨3, ![n, a, b]⟩ : Shape).Reduces [(2 : Fin 3)] ⟨2, ![n, a]⟩) (p : Fin n) (i : Fin a) :
    Host.reduce f x init h' hu (ix2 p i)
      = (Finset.univ : Finset (Fin b)).fold f (init (Shape.Idx.first hu)) (fun j => x (ix3 p i j)) := by
  rw [Host.reduce_eq_fold, Shape.ReducesTo.drop_eq_drop h' h, h.fold_filter_drop_single]
  have e : (x ∘ h.lift (ix2 p i)) = fun j : Fin b => x (ix3 p i j) := funext fun j => congrArg x (lift_along_last h p i j)
  rw [e]
  rfl

/-- The host's reduce along the middle axis. -/
theorem host_reduce_middle_apply {u : Shape} (f : EReal → EReal → EReal) [Std.Commutative f] [Std.Associative f]
    (x : (⟨3, ![n, a, b]⟩ : Shape).Idx → EReal) (init : u.Idx → EReal)
    (h' : (⟨3, ![n, a, b]⟩ : Shape).ReducesTo [(1 : Fin 3)] ⟨2, ![n, b]⟩) (hu : 0 < u.numel)
    (h : (⟨3, ![n, a, b]⟩ : Shape).Reduces [(1 : Fin 3)] ⟨2, ![n, b]⟩) (p : Fin n) (j : Fin b) :
    Host.reduce f x init h' hu (ix2 p j)
      = (Finset.univ : Finset (Fin a)).fold f (init (Shape.Idx.first hu)) (fun i => x (ix3 p i j)) := by
  rw [Host.reduce_eq_fold, Shape.ReducesTo.drop_eq_drop h' h, h.fold_filter_drop_single]
  have e : (x ∘ h.lift (ix2 p j)) = fun i : Fin a => x (ix3 p i j) := funext fun i => congrArg x (lift_along_middle h p j i)
  rw [e]
  rfl

end Idealize.ShloMosaic.ReduceAt

end
-- ==== Proof.LstmSpec.lean ====
/-
  The mathematics both programs compute, row by row, on the extended reals.

  One batch row (x, h, c) goes through a single LSTM step whose four gates are each the sum of two dense layers,
  then through a three-layer decoder (tanh, tanh, softmax). A dense layer is v ↦ Σ_k v_k · W(j, k) + b_j.
  The gates in order: forget, input, state, output. The new cell value is c·σ(f) + σ(i)·tanh(s) and the new hidden
  row is σ(o)·tanh of it. The softmax subtracts the row's maximum, exponentiates and divides by the row's sum.
  Two rearrangements relate the two programs: a sum of two dense layers adds the two products first and the two
  biases second, ((A + b) + (C + b') = (A + C) + (b + b')), and a contraction padded with zero weights drops the
  padded terms.
-/
import Idealize.ShloMosaic.PureOps.Ideal
import Idealize.ShloMosaic.PureOps.Ideal.Laws
import Idealize.ShloMosaic.Lib.ValueIdx

noncomputable section

namespace Cert.LstmSpec

open Idealize.ShloMosaic Idealize.ShloMosaic.ValueIdx

abbrev Row (n : ℕ) := Fin n → EReal
abbrev Mat (n k : ℕ) := Fin n → Fin k → EReal

/-- A dense layer at output j: the contraction of the row with row j of the weights, plus the bias. -/
def dense {K N : ℕ} (v : Row K) (W : Mat N K) (b : Row N) (j : Fin N) : EReal := (∑ k, v k * W j k) + b j

/-- A gate's pre-activation: the dense layer of x plus the dense layer of h. -/
def gate {K N : ℕ} (x h : Row K) (Wi Wh : Mat N K) (bi bh : Row N) (j : Fin N) : EReal :=
  dense x Wi bi j + dense h Wh bh j

/-- The same pre-activation with the two products added first and the two biases second. -/
theorem gate_eq {K N : ℕ} (x h : Row K) (Wi Wh : Mat N K) (bi bh : Row N) (j : Fin N) :
    ((∑ k, x k * Wi j k) + (∑ k, h k * Wh j k)) + (bi j + bh j) = gate x h Wi Wh bi bh j := by
  unfold gate dense
  exact add_add_add_comm _ _ _ _

/-- The new hidden value at column j from the four gates' pre-activations and the old cell value. -/
def hidden (c f i s o : EReal) : EReal :=
  Ideal.logistic o * Ideal.tanh (c * Ideal.logistic f + Ideal.logistic i * Ideal.tanh s)

/-- A contraction over K + P terms whose last P weights are zero is the contraction over the first K. -/
theorem sum_padded {K P : ℕ} (v : Fin (K + P) → EReal) (w : Fin (K + P) → EReal)
    (hw : ∀ k : Fin (K + P), K ≤ k.val → w k = 0) :
    (∑ k : Fin (K + P), v k * w k) = ∑ k : Fin K, v (Fin.castAdd P k) * w (Fin.castAdd P k) := by
  rw [Fin.sum_univ_add]
  have hz : (∑ k : Fin P, v (Fin.natAdd K k) * w (Fin.natAdd K k)) = 0 :=
    Finset.sum_eq_zero fun k _ => by
      rw [hw (Fin.natAdd K k) (by simp [Fin.natAdd])]
      exact mul_zero _
  rw [hz, add_zero]

/-- The f32 word of 1.0 is the extended real 1. -/
theorem ofBits_one : Ideal.ofBits .f32 0x3F800000#32 = 1 := by
  simp [Ideal.ofBits, Ideal.ieee, -EReal.coe_mul]; norm_num

/-- The f32 word of −∞ is the least extended real. -/
theorem ofBits_neg_inf : Ideal.ofBits .f32 0xFF800000#32 = ⊥ := by
  simp [Ideal.ofBits, Ideal.ieee]

/-- Dividing by one changes nothing. -/
theorem div_one' (x : EReal) : Ideal.div x 1 = x := by
  unfold Ideal.div
  rw [if_neg one_ne_zero, inv_one, mul_one]

/-- The softmax of a row at column j: exp(z_j − M) over the sum of exp(z_k − M), M the row's maximum. -/
def softmax {N : ℕ} (z : Row N) (j : Fin N) : EReal :=
  Ideal.div (Ideal.exp (z j - (Finset.univ : Finset (Fin N)).fold max ⊥ z))
    (∑ k, Ideal.exp (z k - (Finset.univ : Finset (Fin N)).fold max ⊥ z))

/-- Row r of a matrix, a matrix as a function of two coordinates, a vector as a function of one. -/
def rowOf {R K : ℕ} (x : (⟨2, ![R, K]⟩ : Shape).Idx → EReal) (r : Fin R) : Row K := fun k => x (ix2 r k)
def matOf {N K : ℕ} (W : (⟨2, ![N, K]⟩ : Shape).Idx → EReal) : Mat N K := fun j k => W (ix2 j k)
def vecOf {N : ℕ} (b : (⟨1, ![N]⟩ : Shape).Idx → EReal) : Row N := fun j => b (ix1 j)

/-- The weights and biases of the four gates (forget, input, state, output; x-side then h-side). -/
structure CellW where
  Wfi : Mat 1024 1024
  bfi : Row 1024
  Wfh : Mat 1024 1024
  bfh : Row 1024
  Wii : Mat 1024 1024
  bii : Row 1024
  Wih : Mat 1024 1024
  bih : Row 1024
  Wsi : Mat 1024 1024
  bsi : Row 1024
  Wsh : Mat 1024 1024
  bsh : Row 1024
  Woi : Mat 1024 1024
  boi : Row 1024
  Woh : Mat 1024 1024
  boh : Row 1024

/-- The decoder's three layers. -/
structure DecW where
  W1 : Mat 512 1024
  b1 : Row 512
  W2 : Mat 341 512
  b2 : Row 341
  W3 : Mat 512 341
  b3 : Row 512

/-- The new hidden row of one batch row. -/
def hiddenRow (x h c : Row 1024) (w : CellW) : Row 1024 := fun j =>
  hidden (c j) (gate x h w.Wfi w.Wfh w.bfi w.bfh j) (gate x h w.Wii w.Wih w.bii w.bih j)
    (gate x h w.Wsi w.Wsh w.bsi w.bsh j) (gate x h w.Woi w.Woh w.boi w.boh j)

/-- The decoder's probabilities of one batch row, from its new hidden row. -/
def probsRow (hrow : Row 1024) (w : DecW) : Row 512 :=
  softmax (fun j => dense (fun k => Ideal.tanh (dense (fun k' => Ideal.tanh (dense hrow w.W1 w.b1 k')) w.W2 w.b2 k)) w.W3 w.b3 j)

end Cert.LstmSpec

end
-- ==== Proof.LibSoftmaxRows.lean ====
/-
  General readings, at the ideal instance, of the pieces a dense network's kernel is made of, for any extents.

  A bias kept as a length-n vector, made a 1 by n row and repeated down the rows, reads the vector at the column.
  A row-wise softmax of an a by b array (the row's maximum taken with the least element as accumulator, subtracted,
  exponentiated, the row's sum taken from zero, divided) reads, at (p, j), exp(v(p,j) − M) / Σ_k exp(v(p,k) − M)
  with M the maximum of row p: the maximum and the sum are kept as columns and spread back over the row.
-/
import Idealize.ShloMosaic.Lib.ValueLayout
import proofs.«171681_j56238301774012_2_alg».proof.Proof.LibKeepdims
import proofs.«171681_j56238301774012_2_alg».proof.Proof.LibRowMax
import proofs.«171681_j56238301774012_2_alg».proof.Proof.LibReduceAt
import proofs.«171681_j56238301774012_2_alg».proof.Proof.LstmSpec

noncomputable section

namespace Idealize.ShloMosaic.SoftmaxRows

open Idealize.ShloMosaic Idealize.ShloMosaic.ValueIdx Idealize.ShloMosaic.Pipeline Cert.LstmSpec

variable {a b : ℕ}

/-- A bias: a length-b vector cast to a 1 by b row and broadcast down a rows reads the vector at the column. -/
theorem bias_row_apply {α : Type} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ x h1) h2 (ix2 p c) = x (ix1 c) :=
  (broadcastTo_1b_ab_apply _ h2 p c).trans (shapeCast_a_1a_apply x h1 0 c)

/-- A kernel's row-wise softmax read at an entry. -/
theorem kernel_softmax_apply (v : FVec Ideal (⟨2, ![a, b]⟩ : Shape) .f32)
    (hr : (⟨2, ![a, b]⟩ : Shape).Reduces [(1 : Fin 2)] ⟨1, ![a]⟩) (hφ : FKind.Formats .f32)
    (hm : (0xFF800000#32 : BitVec FTy.f32.bits) = FKind.maximumf.neutral .f32 hφ)
    (hs : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (j : Fin b) :
    divf (exp (subf v (broadcastTo ⟨2, ![a, b]⟩ (shapeCast ⟨2, ![a, 1]⟩
            (multiReduction .maximumf [(1 : Fin 2)] ⟨1, ![a]⟩ v 0xFF800000#32 hr hφ hm) hc) hb)))
         (broadcastTo ⟨2, ![a, b]⟩ (shapeCast ⟨2, ![a, 1]⟩
            (multiReduction .add [(1 : Fin 2)] ⟨1, ![a]⟩
              (exp (subf v (broadcastTo ⟨2, ![a, b]⟩ (shapeCast ⟨2, ![a, 1]⟩
                (multiReduction .maximumf [(1 : Fin 2)] ⟨1, ![a]⟩ v 0xFF800000#32 hr hφ hm) hc) hb)))
              0x00000000#32 hr hφ hs) hc) hb) (ix2 p j)
      = softmax (fun k => v (ix2 p k)) j := by
  have hmax : ∀ k : Fin b, (broadcastTo ⟨2, ![a, b]⟩ (shapeCast ⟨2, ![a, 1]⟩
      (multiReduction .maximumf [(1 : Fin 2)] ⟨1, ![a]⟩ v 0xFF800000#32 hr hφ hm) hc) hb) (ix2 p k)
      = (Finset.univ : Finset (Fin b)).fold max ⊥ (fun k => v (ix2 p k)) := fun k => by
    rw [Keepdims.column_spread, RowMax.row_max_apply, ofBits_neg_inf]
  have he : ∀ k : Fin b, (exp (subf v (broadcastTo ⟨2, ![a, b]⟩ (shapeCast ⟨2, ![a, 1]⟩
      (multiReduction .maximumf [(1 : Fin 2)] ⟨1, ![a]⟩ v 0xFF800000#32 hr hφ hm) hc) hb))) (ix2 p k)
      = Ideal.exp (v (ix2 p k) - (Finset.univ : Finset (Fin b)).fold max ⊥ (fun k => v (ix2 p k))) := fun k => by
    show Ideal.exp (v (ix2 p k) - _) = _
    rw [hmax k]
  show Ideal.div _ _ = _
  unfold softmax
  rw [he j, Keepdims.column_spread, ReduceAt.row_sum_apply]
  exact congrArg _ (Finset.sum_congr rfl fun k _ => he k)

end Idealize.ShloMosaic.SoftmaxRows

end
-- ==== Proof.KernelRow.lean ====
/-
  The kernel body's arithmetic read at an entry, at the ideal instance.

  At row p of a block: the fused gate pre-activation at column c of the 4096-wide product is the contraction of the
  x row with column c of the x-side weights plus that of the h row with the h-side weights plus the fused bias at c;
  the four gates are the four 1024-wide column ranges of it; the new hidden entry is σ(o)·tanh(c·σ(f) + σ(i)·tanh(s)).
  The decoder's first layer contracts the new hidden row; its second and third layers and the softmax follow.
-/
import proofs.«171681_j56238301774012_2_alg».proof.Proof.Gen.KernelIdeal.Skeleton
import proofs.«171681_j56238301774012_2_alg».proof.Proof.LibMatmulRows
import proofs.«171681_j56238301774012_2_alg».proof.Proof.LibSoftmaxRows
import Idealize.ShloMosaic.Lib.ValueLayout
import Idealize.ShloMosaic.Lib.Pipeline.Value

noncomputable section

namespace Cert.KernelIdeal.Row

open Idealize.ShloMosaic Idealize.ShloMosaic.ValueIdx Idealize.ShloMosaic.Pipeline Cert.KernelIdeal Cert.KernelIdeal.Gen Cert.LstmSpec

abbrev dotA := dot_S256x1024_S1024x4096_S256x4096_1_0_0_1_n_n
abbrev dotB := dot_S256x1024_S1024x512_S256x512_1_0_0_1_n_n
abbrev dotC := dot_S256x512_S512x384_S256x384_1_0_0_1_n_n
abbrev dotD := dot_S256x384_S384x512_S256x512_1_0_0_1_n_n

theorem dotA_l0 (i q) : (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem dotA_r1 (i q) : (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

theorem dotB_l0 (i q) : (dot_S256x1024_S1024x512_S256x512_1_0_0_1_n_n.lhsIdx i q 0).val = (i 0).val := by
  unfold DotDims.lhsIdx
  rw [dif_neg (show ¬(0 : Fin S256x1024.rank) ∈ dot_S256x1024_S1024x512_S256x512_1_0_0_1_n_n.lhsBatch by decide), dif_pos (show (0 : Fin S256x1024.rank) ∈ dot_S256x1024_S1024x512_S256x512_1_0_0_1_n_n.lhsNonContracting by decide)]
  rfl
theorem dotB_r1 (i q) : (dot_S256x1024_S1024x512_S256x512_1_0_0_1_n_n.rhsIdx i q 1).val = (i 1).val := by
  unfold DotDims.rhsIdx
  rw [dif_neg (show ¬(1 : Fin S1024x512.rank) ∈ dot_S256x1024_S1024x512_S256x512_1_0_0_1_n_n.rhsBatch by decide), dif_pos (show (1 : Fin S1024x512.rank) ∈ dot_S256x1024_S1024x512_S256x512_1_0_0_1_n_n.rhsNonContracting by decide)]
  rfl

theorem dotC_l0 (i q) : (dot_S256x512_S512x384_S256x384_1_0_0_1_n_n.lhsIdx i q 0).val = (i 0).val := by
  unfold DotDims.lhsIdx
  rw [dif_neg (show ¬(0 : Fin S256x512.rank) ∈ dot_S256x512_S512x384_S256x384_1_0_0_1_n_n.lhsBatch by decide), dif_pos (show (0 : Fin S256x512.rank) ∈ dot_S256x512_S512x384_S256x384_1_0_0_1_n_n.lhsNonContracting by decide)]
  rfl
theorem dotC_r1 (i q) : (dot_S256x512_S512x384_S256x384_1_0_0_1_n_n.rhsIdx i q 1).val = (i 1).val := by
  unfold DotDims.rhsIdx
  rw [dif_neg (show ¬(1 : Fin S512x384.rank) ∈ dot_S256x512_S512x384_S256x384_1_0_0_1_n_n.rhsBatch by decide), dif_pos (show (1 : Fin S512x384.rank) ∈ dot_S256x512_S512x384_S256x384_1_0_0_1_n_n.rhsNonContracting by decide)]
  rfl

theorem dotD_l0 (i q) : (dot_S256x384_S384x512_S256x512_1_0_0_1_n_n.lhsIdx i q 0).val = (i 0).val := by
  unfold DotDims.lhsIdx
  rw [dif_neg (show ¬(0 : Fin S256x384.rank) ∈ dot_S256x384_S384x512_S256x512_1_0_0_1_n_n.lhsBatch by decide), dif_pos (show (0 : Fin S256x384.rank) ∈ dot_S256x384_S384x512_S256x512_1_0_0_1_n_n.lhsNonContracting by decide)]
  rfl
theorem dotD_r1 (i q) : (dot_S256x384_S384x512_S256x512_1_0_0_1_n_n.rhsIdx i q 1).val = (i 1).val := by
  unfold DotDims.rhsIdx
  rw [dif_neg (show ¬(1 : Fin S384x512.rank) ∈ dot_S256x384_S384x512_S256x512_1_0_0_1_n_n.rhsBatch by decide), dif_pos (show (1 : Fin S384x512.rank) ∈ dot_S256x384_S384x512_S256x512_1_0_0_1_n_n.rhsNonContracting by decide)]
  rfl

/-- The fused gate pre-activation at row p, column c. -/
def preact (x0 x1 : FVec Ideal S256x1024 .f32) (x3 x4 : FVec Ideal S1024x4096 .bf16) (x5 : FVec Ideal S4096 .f32)
    (p : Fin 256) (c : Fin 4096) : EReal :=
  ((∑ k : Fin 1024, x0 (ix2 p k) * x3 (ix2 k c)) + (∑ k : Fin 1024, x1 (ix2 p k) * x4 (ix2 k c))) + x5 (ix1 c)

theorem gates_apply (x0 x1 : FVec Ideal S256x1024 .f32) (x3 x4 : FVec Ideal S1024x4096 .bf16) (x5 : FVec Ideal S4096 .f32)
    (hb : 16 < 32) (hw : S1024x4096.ShapeCasts S1024x4096) (h1 : S4096.ShapeCasts S4096) (h2 : S4096.ShapeCasts S1x4096)
    (h3 : S1x4096.Broadcasts S256x4096) (p : Fin 256) (c : Fin 4096) :
    addf (addf (matmul dot_S256x1024_S1024x4096_S256x4096_1_0_0_1_n_n none (truncf .bf16 x0 hb) (shapeCast S1024x4096 x3 hw) (constant S256x4096 .f32 0x00000000#32))
               (matmul dot_S256x1024_S1024x4096_S256x4096_1_0_0_1_n_n none (truncf .bf16 x1 hb) (shapeCast S1024x4096 x4 hw) (constant S256x4096 .f32 0x00000000#32)))
         (broadcastTo S256x4096 (shapeCast S1x4096 (shapeCast S4096 x5 h1) h2) h3) (ix2 p c)
      = preact x0 x1 x3 x4 x5 p c := by
  rw [shapeCast_self, shapeCast_self, shapeCast_self]
  show (_ + _) + _ = _
  unfold preact
  refine congrArg₂ (· + ·) (congrArg₂ (· + ·) ?_ ?_) ?_
  · exact MatmulRows.matmul_zero_apply dot_S256x1024_S1024x4096_S256x4096_1_0_0_1_n_n none rfl rfl rfl rfl dotA_l0 dotA_r1 _ _ (ix2 p c)
  · exact MatmulRows.matmul_zero_apply dot_S256x1024_S1024x4096_S256x4096_1_0_0_1_n_n none rfl rfl rfl rfl dotA_l0 dotA_r1 _ _ (ix2 p c)
  · exact SoftmaxRows.bias_row_apply x5 h2 h3 p c

theorem cell_apply (c : FVec Ideal S256x1024 .f32) (g : FVec Ideal S256x4096 .f32)
    (h0 : S256x4096.Slices ![0, 0] S256x1024) (h1 : S256x4096.Slices ![0, 1024] S256x1024)
    (h2 : S256x4096.Slices ![0, 2048] S256x1024) (h3 : S256x4096.Slices ![0, 3072] S256x1024) (p : Fin 256) (q : Fin 1024) :
    mulf (logistic (extractStridedSlice S256x1024 ![0, 3072] g h3))
      (tanh (addf (mulf c (logistic (extractStridedSlice S256x1024 ![0, 0] g h0)))
        (mulf (logistic (extractStridedSlice S256x1024 ![0, 1024] g h1)) (tanh (extractStridedSlice S256x1024 ![0, 2048] g h2))))) (ix2 p q)
      = hidden (c (ix2 p q)) (g (ix2 p ⟨0 + q.val, by omega⟩)) (g (ix2 p ⟨1024 + q.val, by omega⟩))
          (g (ix2 p ⟨2048 + q.val, by omega⟩)) (g (ix2 p ⟨3072 + q.val, by omega⟩)) := by
  show Ideal.logistic (extractStridedSlice S256x1024 ![0, 3072] g h3 (ix2 p q))
      * Ideal.tanh (c (ix2 p q) * Ideal.logistic (extractStridedSlice S256x1024 ![0, 0] g h0 (ix2 p q))
        + Ideal.logistic (extractStridedSlice S256x1024 ![0, 1024] g h1 (ix2 p q)) * Ideal.tanh (extractStridedSlice S256x1024 ![0, 2048] g h2 (ix2 p q))) = _
  rw [slice2_axis1_apply 3072 g h3 p q ⟨3072 + q.val, by omega⟩ rfl, slice2_axis1_apply 0 g h0 p q ⟨0 + q.val, by omega⟩ rfl,
    slice2_axis1_apply 1024 g h1 p q ⟨1024 + q.val, by omega⟩ rfl, slice2_axis1_apply 2048 g h2 p q ⟨2048 + q.val, by omega⟩ rfl]
  rfl

/-- The new hidden entry the body stores at row p, column q of its block. -/
theorem pay2_apply (x0 x1 x2 : FVec Ideal S256x1024 .f32) (x3 x4 : FVec Ideal S1024x4096 .bf16) (x5 : FVec Ideal S4096 .f32)
    (p : Fin 256) (q : Fin 1024) :
    k0_pay2 (F := Ideal) x0 x1 x2 x3 x4 x5 (ix2 p q)
      = hidden (x2 (ix2 p q)) (preact x0 x1 x3 x4 x5 p ⟨0 + q.val, by omega⟩) (preact x0 x1 x3 x4 x5 p ⟨1024 + q.val, by omega⟩)
          (preact x0 x1 x3 x4 x5 p ⟨2048 + q.val, by omega⟩) (preact x0 x1 x3 x4 x5 p ⟨3072 + q.val, by omega⟩) := by
  unfold k0_pay2
  refine (cell_apply x2 _ _ _ _ _ p q).trans ?_
  rw [gates_apply, gates_apply, gates_apply, gates_apply]

/-- The decoder's first pre-activation at row p, column j: the new hidden row contracted with column j of the weights, plus the bias. -/
theorem pay3_apply (x0 x1 x2 : FVec Ideal S256x1024 .f32) (x3 x4 : FVec Ideal S1024x4096 .bf16) (x5 : FVec Ideal S4096 .f32)
    (x6 : FVec Ideal S1024x512 .bf16) (x7 : FVec Ideal S512 .f32) (p : Fin 256) (j : Fin 512) :
    k0_pay3 (F := Ideal) x0 x1 x2 x3 x4 x5 x6 x7 (ix2 p j)
      = (∑ k : Fin 1024, k0_pay2 (F := Ideal) x0 x1 x2 x3 x4 x5 (ix2 p k) * x6 (ix2 k j)) + x7 (ix1 j) := by
  unfold k0_pay3
  rw [shapeCast_self]
  show _ + _ = _
  refine congrArg₂ (· + ·) ?_ ?_
  · exact MatmulRows.matmul_zero_apply dot_S256x1024_S1024x512_S256x512_1_0_0_1_n_n none rfl rfl rfl rfl dotB_l0 dotB_r1 _ _ (ix2 p j)
  · exact SoftmaxRows.bias_row_apply x7 _ _ p j

/-- The decoder's second layer at row p, column k, from the first pre-activation. -/
def d2row (v38 : FVec Ideal S256x512 .f32) (x8 : FVec Ideal S512x384 .bf16) (x9 : FVec Ideal S384 .f32) (p : Fin 256) (k : Fin 384) : EReal :=
  Ideal.tanh ((∑ k' : Fin 512, Ideal.tanh (v38 (ix2 p k')) * x8 (ix2 k' k)) + x9 (ix1 k))

/-- The logits at row p, column j. -/
def logit (v38 : FVec Ideal S256x512 .f32) (x8 : FVec Ideal S512x384 .bf16) (x9 : FVec Ideal S384 .f32)
    (x10 : FVec Ideal S384x512 .bf16) (x11 : FVec Ideal S512 .f32) (p : Fin 256) (j : Fin 512) : EReal :=
  (∑ k : Fin 384, d2row v38 x8 x9 p k * x10 (ix2 k j)) + x11 (ix1 j)

theorem logits_apply (v38 : FVec Ideal S256x512 .f32) (x8 : FVec Ideal S512x384 .bf16) (x9 : FVec Ideal S384 .f32)
    (x10 : FVec Ideal S384x512 .bf16) (x11 : FVec Ideal S512 .f32)
    (hb : 16 < 32) (h8 : S512x384.ShapeCasts S512x384) (h9 : S384.ShapeCasts S384) (h9' : S384.ShapeCasts S1x384) (h9'' : S1x384.Broadcasts S256x384)
    (h10 : S384x512.ShapeCasts S384x512) (h11 : S512.ShapeCasts S1x512) (h11' : S1x512.Broadcasts S256x512) (p : Fin 256) (j : Fin 512) :
    mulf (addf (matmul dot_S256x384_S384x512_S256x512_1_0_0_1_n_n none
        (truncf .bf16 (tanh (addf (matmul dot_S256x512_S512x384_S256x384_1_0_0_1_n_n none (truncf .bf16 (tanh v38) hb) (shapeCast S512x384 x8 h8) (constant S256x384 .f32 0x00000000#32))
          (broadcastTo S256x384 (shapeCast S1x384 (shapeCast S384 x9 h9) h9') h9''))) hb)
        (shapeCast S384x512 x10 h10) (constant S256x512 .f32 0x00000000#32))
      (broadcastTo S256x512 (shapeCast S1x512 x11 h11) h11')) (broadcast S256x512 (Scalar.ofBits (F := Ideal) .f32 0x3F800000#32)) (ix2 p j)
      = logit v38 x8 x9 x10 x11 p j := by
  rw [shapeCast_self, shapeCast_self, shapeCast_self]
  show (_ + _) * Ideal.ofBits .f32 0x3F800000#32 = _
  rw [ofBits_one, mul_one]
  unfold logit
  refine congrArg₂ (· + ·) ?_ ?_
  · refine (MatmulRows.matmul_zero_apply dot_S256x384_S384x512_S256x512_1_0_0_1_n_n none rfl rfl rfl rfl dotD_l0 dotD_r1 _ _ (ix2 p j)).trans ?_
    refine Finset.sum_congr rfl fun k _ => congrArg (· * _) ?_
    show Ideal.tanh (_ + _) = _
    unfold d2row
    refine congrArg Ideal.tanh (congrArg₂ (· + ·) ?_ ?_)
    · exact MatmulRows.matmul_zero_apply dot_S256x512_S512x384_S256x384_1_0_0_1_n_n none rfl rfl rfl rfl dotC_l0 dotC_r1 _ _ (ix2 p k)
    · exact SoftmaxRows.bias_row_apply x9 _ _ p k
  · exact SoftmaxRows.bias_row_apply x11 _ _ p j

/-- The probability the body stores at row p, column j of its second output block. -/
theorem pay1_apply (v38 : FVec Ideal S256x512 .f32) (x8 : FVec Ideal S512x384 .bf16) (x9 : FVec Ideal S384 .f32)
    (x10 : FVec Ideal S384x512 .bf16) (x11 : FVec Ideal S512 .f32) (p : Fin 256) (j : Fin 512) :
    k0_pay1 (F := Ideal) v38 x8 x9 x10 x11 (ix2 p j) = softmax (fun k => logit v38 x8 x9 x10 x11 p k) j := by
  unfold k0_pay1
  refine (SoftmaxRows.kernel_softmax_apply _ _ _ _ _ _ _ p j).trans ?_
  refine congrArg (fun z => softmax z j) (funext fun k => ?_)
  exact logits_apply v38 x8 x9 x10 x11 _ _ _ _ _ _ _ _ p k

end Cert.KernelIdeal.Row

end
-- ==== Proof.KernelWindows.lean ====
/-
  What the kernel's weight windows hold when the region is entered, at the ideal instance.

  The x-side (and h-side) gate weights are the four gate matrices stacked along the output axis, transposed: entry
  (k, 1024·g + q) is gate g's weight (q, k). The fused bias is the four sums of an x-side and an h-side bias, stacked.
  The first decoder matrix is transposed. The second decoder layer's weights and bias are padded with zeros from 341
  to 384 outputs, and the third's weights from 341 to 384 inputs; rounding to a narrower format is the identity here.
-/
import proofs.«171681_j56238301774012_2_alg».proof.Proof.FrameDefsKernelIdeal
import Idealize.ShloMosaic.Lib.Pipeline.Value
import Idealize.ShloMosaic.Lib.ValueLayout
import Idealize.ShloMosaic.Lib.KernelVsHost
import Idealize.ShloMosaic.Lib.StableHlo.Run

set_option maxRecDepth 16384

noncomputable section

namespace Cert.KernelIdeal.Win

open Idealize.ShloMosaic Idealize.ShloMosaic.TcCoe Idealize.ShloMosaic.ValueIdx Idealize.ShloMosaic.Pipeline Idealize.ShloMosaic.StableHlo Idealize.SL.Sem
open Cert.KernelIdeal Cert.KernelIdeal.Gen Cert.KernelIdeal.Gen.Fr

variable (m : (ℓ : Loc nD τ sig) → Buf (Elt Ideal) ℓ)

/-- The padding value: the integer 0 as a float. -/
def zeroPad : FVec Ideal S_ .f32 := sitofp .f32 (constantI S_ 32 0#32)

/-- Four gate matrices stacked along the output axis, transposed. -/
def wcatT (W0 W1 W2 W3 : FVec Ideal S1024x1024 .f32) : FVec Ideal S1024x4096 .bf16 :=
  truncf .bf16 (transpose S1024x4096 [1, 0] (concatenate S4096x1024 0 [⟨S1024x1024, W0⟩, ⟨S1024x1024, W1⟩, ⟨S1024x1024, W2⟩, ⟨S1024x1024, W3⟩]
    concatenates_S1024x1024_S1024x1024_S1024x1024_S1024x1024_S4096x1024_d0) transposes_S4096x1024_S1024x4096_1_0) bitsLt_bf16_f32

/-- The four sums of an x-side and an h-side bias, stacked. -/
def bcat (b0 b0' b1 b1' b2 b2' b3 b3' : FVec Ideal S1024 .f32) : FVec Ideal S4096 .f32 :=
  concatenate S4096 0 [⟨S1024, addf b0 b0'⟩, ⟨S1024, addf b1 b1'⟩, ⟨S1024, addf b2 b2'⟩, ⟨S1024, addf b3 b3'⟩]
    concatenates_S1024_S1024_S1024_S1024_S4096_d0

def wtd1T (W : FVec Ideal S512x1024 .f32) : FVec Ideal S1024x512 .bf16 :=
  truncf .bf16 (transpose S1024x512 [1, 0] W transposes_S512x1024_S1024x512_1_0) bitsLt_bf16_f32

def wtd2T (W : FVec Ideal S341x512 .f32) : FVec Ideal S512x384 .bf16 :=
  truncf .bf16 (transpose S512x384 [1, 0] (pad S384x512 ![0, 0] ![43, 0] ![0, 0] W zeroPad pads_S341x512_S384x512_0430_000 h_S_)
    transposes_S384x512_S512x384_1_0) bitsLt_bf16_f32

def bd2P (b : FVec Ideal S341 .f32) : FVec Ideal S384 .f32 := pad S384 ![0] ![43] ![0] b zeroPad pads_S341_S384_0430 h_S_

def wtd3T (W : FVec Ideal S512x341 .f32) : FVec Ideal S384x512 .bf16 :=
  truncf .bf16 (transpose S384x512 [1, 0] (pad S512x384 ![0, 0] ![0, 43] ![0, 0] W zeroPad pads_S512x341_S512x384_000_0430 h_S_)
    transposes_S512x384_S384x512_1_0) bitsLt_bf16_f32

/-! ## The windows' arrays as the region finds them -/

theorem V_main_v8 (c : Dev nD) : (V m c main_v8 : S1024x4096.Idx → EReal)
    = wcatT (m ((c : Thread nD τ).loc main_arg3) : S1024x1024.Idx → EReal) (m ((c : Thread nD τ).loc main_arg7) : S1024x1024.Idx → EReal) (m ((c : Thread nD τ).loc main_arg11) : S1024x1024.Idx → EReal) (m ((c : Thread nD τ).loc main_arg15) : S1024x1024.Idx → EReal) := by
  dsimp only [V]
  simp only [hostOps0, hostOps0_1, hostOps0_2, hostOps0_3, hostOps0_4, hostOps0_5, hostOps0_6, List.flatten_cons, List.flatten_nil, List.append_nil, List.cons_append, List.nil_append]
  after_results
  rfl

theorem V_main_v10 (c : Dev nD) : (V m c main_v10 : S1024x4096.Idx → EReal)
    = wcatT (m ((c : Thread nD τ).loc main_arg5) : S1024x1024.Idx → EReal) (m ((c : Thread nD τ).loc main_arg9) : S1024x1024.Idx → EReal) (m ((c : Thread nD τ).loc main_arg13) : S1024x1024.Idx → EReal) (m ((c : Thread nD τ).loc main_arg17) : S1024x1024.Idx → EReal) := by
  dsimp only [V]
  simp only [hostOps0, hostOps0_1, hostOps0_2, hostOps0_3, hostOps0_4, hostOps0_5, hostOps0_6, List.flatten_cons, List.flatten_nil, List.append_nil, List.cons_append, List.nil_append]
  after_results
  rfl

theorem V_main_v6 (c : Dev nD) : (V m c main_v6 : S4096.Idx → EReal)
    = bcat (m ((c : Thread nD τ).loc main_arg4) : S1024.Idx → EReal) (m ((c : Thread nD τ).loc main_arg6) : S1024.Idx → EReal) (m ((c : Thread nD τ).loc main_arg8) : S1024.Idx → EReal) (m ((c : Thread nD τ).loc main_arg10) : S1024.Idx → EReal) (m ((c : Thread nD τ).loc main_arg12) : S1024.Idx → EReal) (m ((c : Thread nD τ).loc main_arg14) : S1024.Idx → EReal) (m ((c : Thread nD τ).loc main_arg16) : S1024.Idx → EReal) (m ((c : Thread nD τ).loc main_arg18) : S1024.Idx → EReal) := by
  dsimp only [V]
  simp only [hostOps0, hostOps0_1, hostOps0_2, hostOps0_3, hostOps0_4, hostOps0_5, hostOps0_6, List.flatten_cons, List.flatten_nil, List.append_nil, List.cons_append, List.nil_append]
  after_results
  rfl

theorem V_main_v12 (c : Dev nD) : (V m c main_v12 : S1024x512.Idx → EReal) = wtd1T (m ((c : Thread nD τ).loc main_arg19) : S512x1024.Idx → EReal) := by
  dsimp only [V]
  simp only [hostOps0, hostOps0_1, hostOps0_2, hostOps0_3, hostOps0_4, hostOps0_5, hostOps0_6, List.flatten_cons, List.flatten_nil, List.append_nil, List.cons_append, List.nil_append]
  after_results
  rfl

theorem V_main_v17 (c : Dev nD) : (V m c main_v17 : S512x384.Idx → EReal) = wtd2T (m ((c : Thread nD τ).loc main_arg21) : S341x512.Idx → EReal) := by
  dsimp only [V]
  simp only [hostOps0, hostOps0_1, hostOps0_2, hostOps0_3, hostOps0_4, hostOps0_5, hostOps0_6, List.flatten_cons, List.flatten_nil, List.append_nil, List.cons_append, List.nil_append]
  after_results
  rfl

theorem V_main_v14 (c : Dev nD) : (V m c main_v14 : S384.Idx → EReal) = bd2P (m ((c : Thread nD τ).loc main_arg22) : S341.Idx → EReal) := by
  dsimp only [V]
  simp only [hostOps0, hostOps0_1, hostOps0_2, hostOps0_3, hostOps0_4, hostOps0_5, hostOps0_6, List.flatten_cons, List.flatten_nil, List.append_nil, List.cons_append, List.nil_append]
  after_results
  rfl

theorem V_main_v19 (c : Dev nD) : (V m c main_v19 : S384x512.Idx → EReal) = wtd3T (m ((c : Thread nD τ).loc main_arg23) : S512x341.Idx → EReal) := by
  dsimp only [V]
  simp only [hostOps0, hostOps0_1, hostOps0_2, hostOps0_3, hostOps0_4, hostOps0_5, hostOps0_6, List.flatten_cons, List.flatten_nil, List.append_nil, List.cons_append, List.nil_append]
  after_results
  rfl

end Cert.KernelIdeal.Win

end
-- ==== Proof.KernelWindowsRead.lean ====
/-
  The kernel's weight windows read at an index, at the ideal instance: which entry of which argument array each
  entry of a window is, and where the padding (the value 0) lies.
-/
import proofs.«171681_j56238301774012_2_alg».proof.Proof.KernelWindows
import Idealize.ShloMosaic.Lib.Pipeline.Value
import Idealize.ShloMosaic.Lib.ValueLayout
import Idealize.ShloMosaic.Lib.ValueIdx
import Idealize.ShloMosaic.Lib.KernelVsHost

set_option maxRecDepth 16384

noncomputable section

namespace Cert.KernelIdeal.Win

open Idealize.ShloMosaic Idealize.ShloMosaic.TcCoe Idealize.ShloMosaic.ValueIdx Idealize.ShloMosaic.Pipeline Idealize.ShloMosaic.StableHlo Idealize.SL.Sem
open Cert.KernelIdeal Cert.KernelIdeal.Gen Cert.KernelIdeal.Gen.Fr

/-- The padding value is 0: the integer 0 converted exactly. -/
theorem zeroPad_apply (i : S_.Idx) : zeroPad i = 0 := by
  show (((0#32 : BitVec 32).toInt : ℝ) : EReal) = 0
  simp

/-! ## The stacked gate weights and the fused bias -/

/-- Entry (k, 1024·g + q) of the stacked, transposed gate weights is gate g's weight (q, k). -/
theorem wcatT_apply (W : Fin 4 → FVec Ideal S1024x1024 .f32) (g : Fin 4) (q k : Fin 1024) (c : Fin 4096)
    (hc : c.val = 1024 * g.val + q.val) :
    wcatT (W 0) (W 1) (W 2) (W 3) (ix2 k c) = W g (ix2 q k) := by
  unfold wcatT
  rw [truncf_apply, transpose_ix2_apply]
  match g, hc with
  | ⟨0, _⟩, hc =>
    have hc' : c.val = 1024 * 0 + q.val := hc
    refine (concatenate_apply_piece _ _ _ (ix2 c k) 0 ?_ _ (W 0) rfl rfl 0 ?_ (ix2 q k) ?_ ?_)
    · simp
    · rfl
    · intro b hb
      match b with | ⟨0, _⟩ => exact absurd rfl hb | ⟨1, _⟩ => rfl
    · show 0 + q.val = c.val
      omega
  | ⟨1, _⟩, hc =>
    have hc' : c.val = 1024 * 1 + q.val := hc
    refine (concatenate_apply_piece _ _ _ (ix2 c k) 1 ?_ _ (W 1) rfl rfl 1024 ?_ (ix2 q k) ?_ ?_)
    · simp
    · rfl
    · intro b hb
      match b with | ⟨0, _⟩ => exact absurd rfl hb | ⟨1, _⟩ => rfl
    · show 1024 + q.val = c.val
      omega
  | ⟨2, _⟩, hc =>
    have hc' : c.val = 1024 * 2 + q.val := hc
    refine (concatenate_apply_piece _ _ _ (ix2 c k) 2 ?_ _ (W 2) rfl rfl 2048 ?_ (ix2 q k) ?_ ?_)
    · simp
    · rfl
    · intro b hb
      match b with | ⟨0, _⟩ => exact absurd rfl hb | ⟨1, _⟩ => rfl
    · show 2048 + q.val = c.val
      omega
  | ⟨3, _⟩, hc =>
    have hc' : c.val = 1024 * 3 + q.val := hc
    refine (concatenate_apply_piece _ _ _ (ix2 c k) 3 ?_ _ (W 3) rfl rfl 3072 ?_ (ix2 q k) ?_ ?_)
    · simp
    · rfl
    · intro b hb
      match b with | ⟨0, _⟩ => exact absurd rfl hb | ⟨1, _⟩ => rfl
    · show 3072 + q.val = c.val
      omega
  | ⟨n + 4, h⟩, _ => exact absurd h (by omega)

/-- Entry 1024·g + q of the fused bias is the sum of gate g's two biases at q. -/
theorem bcat_apply (b b' : Fin 4 → FVec Ideal S1024 .f32) (g : Fin 4) (q : Fin 1024) (c : Fin 4096)
    (hc : c.val = 1024 * g.val + q.val) :
    bcat (b 0) (b' 0) (b 1) (b' 1) (b 2) (b' 2) (b 3) (b' 3) (ix1 c) = b g (ix1 q) + b' g (ix1 q) := by
  unfold bcat
  match g, hc with
  | ⟨0, _⟩, hc =>
    have hc' : c.val = 1024 * 0 + q.val := hc
    refine (concatenate_apply_piece _ _ _ (ix1 c) 0 ?_ _ (addf (b 0) (b' 0)) rfl rfl 0 ?_ (ix1 q) ?_ ?_).trans rfl
    · simp
    · rfl
    · intro b hb
      match b with | ⟨0, _⟩ => exact absurd rfl hb
    · show 0 + q.val = c.val
      omega
  | ⟨1, _⟩, hc =>
    have hc' : c.val = 1024 * 1 + q.val := hc
    refine (concatenate_apply_piece _ _ _ (ix1 c) 1 ?_ _ (addf (b 1) (b' 1)) rfl rfl 1024 ?_ (ix1 q) ?_ ?_).trans rfl
    · simp
    · rfl
    · intro b hb
      match b with | ⟨0, _⟩ => exact absurd rfl hb
    · show 1024 + q.val = c.val
      omega
  | ⟨2, _⟩, hc =>
    have hc' : c.val = 1024 * 2 + q.val := hc
    refine (concatenate_apply_piece _ _ _ (ix1 c) 2 ?_ _ (addf (b 2) (b' 2)) rfl rfl 2048 ?_ (ix1 q) ?_ ?_).trans rfl
    · simp
    · rfl
    · intro b hb
      match b with | ⟨0, _⟩ => exact absurd rfl hb
    · show 2048 + q.val = c.val
      omega
  | ⟨3, _⟩, hc =>
    have hc' : c.val = 1024 * 3 + q.val := hc
    refine (concatenate_apply_piece _ _ _ (ix1 c) 3 ?_ _ (addf (b 3) (b' 3)) rfl rfl 3072 ?_ (ix1 q) ?_ ?_).trans rfl
    · simp
    · rfl
    · intro b hb
      match b with | ⟨0, _⟩ => exact absurd rfl hb
    · show 3072 + q.val = c.val
      omega
  | ⟨n + 4, h⟩, _ => exact absurd h (by omega)

/-! ## The decoder's weights -/

/-- The first decoder matrix, transposed. -/
theorem wtd1T_apply (W : FVec Ideal S512x1024 .f32) (k : Fin 1024) (j : Fin 512) : wtd1T W (ix2 k j) = W (ix2 j k) := by
  unfold wtd1T
  rw [truncf_apply, transpose_ix2_apply]

/-- The second decoder matrix, transposed: output k below 341 is the matrix's own row k, -/
theorem wtd2T_apply_lt (W : FVec Ideal S341x512 .f32) (k' : Fin 512) (k : Fin 384) (hk : k.val < 341) :
    wtd2T W (ix2 k' k) = W (ix2 ⟨k.val, hk⟩ k') := by
  unfold wtd2T
  rw [truncf_apply, transpose_ix2_apply]
  exact pad_apply_of_inside _ _ _ _ _ _ _ (ix2 k k') (ix2 ⟨k.val, hk⟩ k') (fun a => by
    match a with
    | ⟨0, _⟩ => show k.val = 0 + k.val * (0 + 1); omega
    | ⟨1, _⟩ => show k'.val = 0 + k'.val * (0 + 1); omega)

/-- and an output from 341 on is padding. -/
theorem wtd2T_apply_ge (W : FVec Ideal S341x512 .f32) (k' : Fin 512) (k : Fin 384) (hk : 341 ≤ k.val) :
    wtd2T W (ix2 k' k) = 0 := by
  unfold wtd2T
  rw [truncf_apply, transpose_ix2_apply]
  refine (pad_apply_of_not_inside _ _ _ _ _ _ _ (ix2 k k') (0 : Fin 2) (fun h => ?_)).trans (zeroPad_apply _)
  have h3 : (k.val - 0) / (0 + 1) < 341 := h.2.2
  omega

/-- The second decoder layer's bias: output k below 341 is the bias's own entry k, -/
theorem bd2P_apply_lt (b : FVec Ideal S341 .f32) (k : Fin 384) (hk : k.val < 341) : bd2P b (ix1 k) = b (ix1 ⟨k.val, hk⟩) := by
  unfold bd2P
  exact pad_apply_of_inside _ _ _ _ _ _ _ (ix1 k) (ix1 ⟨k.val, hk⟩) (fun a => by
    match a with
    | ⟨0, _⟩ => show k.val = 0 + k.val * (0 + 1); omega)

/-- and an output from 341 on is padding. -/
theorem bd2P_apply_ge (b : FVec Ideal S341 .f32) (k : Fin 384) (hk : 341 ≤ k.val) : bd2P b (ix1 k) = 0 := by
  unfold bd2P
  refine (pad_apply_of_not_inside _ _ _ _ _ _ _ (ix1 k) (0 : Fin 1) (fun h => ?_)).trans (zeroPad_apply _)
  have h3 : (k.val - 0) / (0 + 1) < 341 := h.2.2
  omega

/-- The third decoder matrix, transposed: input k below 341 is the matrix's own column k, -/
theorem wtd3T_apply_lt (W : FVec Ideal S512x341 .f32) (k : Fin 384) (j : Fin 512) (hk : k.val < 341) :
    wtd3T W (ix2 k j) = W (ix2 j ⟨k.val, hk⟩) := by
  unfold wtd3T
  rw [truncf_apply, transpose_ix2_apply]
  exact pad_apply_of_inside _ _ _ _ _ _ _ (ix2 j k) (ix2 j ⟨k.val, hk⟩) (fun a => by
    match a with
    | ⟨0, _⟩ => show j.val = 0 + j.val * (0 + 1); omega
    | ⟨1, _⟩ => show k.val = 0 + k.val * (0 + 1); omega)

/-- and an input from 341 on is padding. -/
theorem wtd3T_apply_ge (W : FVec Ideal S512x341 .f32) (k : Fin 384) (j : Fin 512) (hk : 341 ≤ k.val) :
    wtd3T W (ix2 k j) = 0 := by
  unfold wtd3T
  rw [truncf_apply, transpose_ix2_apply]
  refine (pad_apply_of_not_inside _ _ _ _ _ _ _ (ix2 j k) (1 : Fin 2) (fun h => ?_)).trans (zeroPad_apply _)
  have h3 : (k.val - 0) / (0 + 1) < 341 := h.2.2
  omega

end Cert.KernelIdeal.Win

end
-- ==== Proof.KernelPoint.lean ====
/-
  One row of a block, against the mathematics: what the body stores at row p of its two output blocks, when its
  input rows are a batch row's x, h and c and its weight windows hold the stacked, transposed and padded weights.

  Column 1024·g + q of the fused pre-activation is gate g's pre-activation at q: the two contractions added first and
  the two biases second. The decoder's padded second-layer outputs meet zero weights in the third layer, so the
  contraction over 384 terms is the contraction over the first 341.
-/
import proofs.«171681_j56238301774012_2_alg».proof.Proof.KernelRow

noncomputable section

namespace Cert.KernelIdeal.Point

open Idealize.ShloMosaic Idealize.ShloMosaic.ValueIdx Cert.KernelIdeal Cert.KernelIdeal.Gen Cert.KernelIdeal.Row Cert.LstmSpec

/-- A column of the fused pre-activation is a gate's pre-activation. -/
theorem preact_gate (x0 x1 : FVec Ideal S256x1024 .f32) (x3 x4 : FVec Ideal S1024x4096 .bf16) (x5 : FVec Ideal S4096 .f32)
    (X H : Row 1024) (Wi Wh : Mat 1024 1024) (bi bh : Row 1024) (p : Fin 256) (c : Fin 4096) (q : Fin 1024)
    (h0 : ∀ k, x0 (ix2 p k) = X k) (h1 : ∀ k, x1 (ix2 p k) = H k)
    (h3 : ∀ k, x3 (ix2 k c) = Wi q k) (h4 : ∀ k, x4 (ix2 k c) = Wh q k) (h5 : x5 (ix1 c) = bi q + bh q) :
    preact x0 x1 x3 x4 x5 p c = gate X H Wi Wh bi bh q := by
  unfold preact
  rw [← gate_eq, h5]
  refine congrArg₂ (· + ·) (congrArg₂ (· + ·) ?_ ?_) rfl
  · exact Finset.sum_congr rfl fun k _ => by rw [h0 k, h3 k]
  · exact Finset.sum_congr rfl fun k _ => by rw [h1 k, h4 k]

/-- The four gates' weights by gate number (forget, input, state, output). -/
def Wx (w : CellW) : Fin 4 → Mat 1024 1024 := fun g => match g with | 0 => w.Wfi | 1 => w.Wii | 2 => w.Wsi | 3 => w.Woi
def Wh (w : CellW) : Fin 4 → Mat 1024 1024 := fun g => match g with | 0 => w.Wfh | 1 => w.Wih | 2 => w.Wsh | 3 => w.Woh
def bx (w : CellW) : Fin 4 → Row 1024 := fun g => match g with | 0 => w.bfi | 1 => w.bii | 2 => w.bsi | 3 => w.boi
def bh (w : CellW) : Fin 4 → Row 1024 := fun g => match g with | 0 => w.bfh | 1 => w.bih | 2 => w.bsh | 3 => w.boh

/-- Row p of the first output block is the new hidden row. -/
theorem pay2_spec (x0 x1 x2 : FVec Ideal S256x1024 .f32) (x3 x4 : FVec Ideal S1024x4096 .bf16) (x5 : FVec Ideal S4096 .f32)
    (X H C : Row 1024) (w : CellW) (p : Fin 256)
    (h0 : ∀ k, x0 (ix2 p k) = X k) (h1 : ∀ k, x1 (ix2 p k) = H k) (h2 : ∀ k, x2 (ix2 p k) = C k)
    (h3 : ∀ (g : Fin 4) (q k : Fin 1024) (c : Fin 4096), c.val = 1024 * g.val + q.val → x3 (ix2 k c) = Wx w g q k)
    (h4 : ∀ (g : Fin 4) (q k : Fin 1024) (c : Fin 4096), c.val = 1024 * g.val + q.val → x4 (ix2 k c) = Wh w g q k)
    (h5 : ∀ (g : Fin 4) (q : Fin 1024) (c : Fin 4096), c.val = 1024 * g.val + q.val → x5 (ix1 c) = bx w g q + bh w g q)
    (q : Fin 1024) :
    k0_pay2 (F := Ideal) x0 x1 x2 x3 x4 x5 (ix2 p q) = hiddenRow X H C w q := by
  rw [pay2_apply, h2 q]
  unfold hiddenRow
  have e0 := preact_gate x0 x1 x3 x4 x5 X H w.Wfi w.Wfh w.bfi w.bfh p ⟨0 + q.val, by omega⟩ q h0 h1
    (fun k => h3 0 q k _ (by show 0 + q.val = 1024 * 0 + q.val; omega)) (fun k => h4 0 q k _ (by show 0 + q.val = 1024 * 0 + q.val; omega))
    (h5 0 q _ (by show 0 + q.val = 1024 * 0 + q.val; omega))
  have e1 := preact_gate x0 x1 x3 x4 x5 X H w.Wii w.Wih w.bii w.bih p ⟨1024 + q.val, by omega⟩ q h0 h1
    (fun k => h3 1 q k _ (by show 1024 + q.val = 1024 * 1 + q.val; omega)) (fun k => h4 1 q k _ (by show 1024 + q.val = 1024 * 1 + q.val; omega))
    (h5 1 q _ (by show 1024 + q.val = 1024 * 1 + q.val; omega))
  have e2 := preact_gate x0 x1 x3 x4 x5 X H w.Wsi w.Wsh w.bsi w.bsh p ⟨2048 + q.val, by omega⟩ q h0 h1
    (fun k => h3 2 q k _ (by show 2048 + q.val = 1024 * 2 + q.val; omega)) (fun k => h4 2 q k _ (by show 2048 + q.val = 1024 * 2 + q.val; omega))
    (h5 2 q _ (by show 2048 + q.val = 1024 * 2 + q.val; omega))
  have e3 := preact_gate x0 x1 x3 x4 x5 X H w.Woi w.Woh w.boi w.boh p ⟨3072 + q.val, by omega⟩ q h0 h1
    (fun k => h3 3 q k _ (by show 3072 + q.val = 1024 * 3 + q.val; omega)) (fun k => h4 3 q k _ (by show 3072 + q.val = 1024 * 3 + q.val; omega))
    (h5 3 q _ (by show 3072 + q.val = 1024 * 3 + q.val; omega))
  rw [e0, e1, e2, e3]

/-- Row p of the decoder's first pre-activation is the first dense layer of the new hidden row. -/
theorem pay3_spec (x0 x1 x2 : FVec Ideal S256x1024 .f32) (x3 x4 : FVec Ideal S1024x4096 .bf16) (x5 : FVec Ideal S4096 .f32)
    (x6 : FVec Ideal S1024x512 .bf16) (x7 : FVec Ideal S512 .f32) (hrow : Row 1024) (W1 : Mat 512 1024) (b1 : Row 512) (p : Fin 256)
    (hh : ∀ k, k0_pay2 (F := Ideal) x0 x1 x2 x3 x4 x5 (ix2 p k) = hrow k)
    (h6 : ∀ (k : Fin 1024) (j : Fin 512), x6 (ix2 k j) = W1 j k) (h7 : ∀ j, x7 (ix1 j) = b1 j) (j : Fin 512) :
    k0_pay3 (F := Ideal) x0 x1 x2 x3 x4 x5 x6 x7 (ix2 p j) = dense hrow W1 b1 j := by
  rw [pay3_apply, h7 j]
  unfold dense
  exact congrArg (· + b1 j) (Finset.sum_congr rfl fun k _ => by rw [hh k, h6 k j])

/-- Row p of the second output block is the decoder's probabilities. -/
theorem pay1_spec (v38 : FVec Ideal S256x512 .f32) (x8 : FVec Ideal S512x384 .bf16) (x9 : FVec Ideal S384 .f32)
    (x10 : FVec Ideal S384x512 .bf16) (x11 : FVec Ideal S512 .f32) (hrow : Row 1024) (d : DecW) (p : Fin 256)
    (hv : ∀ k' : Fin 512, v38 (ix2 p k') = dense hrow d.W1 d.b1 k')
    (h8 : ∀ (k' : Fin 512) (k : Fin 384) (hk : k.val < 341), x8 (ix2 k' k) = d.W2 ⟨k.val, hk⟩ k')
    (h9 : ∀ (k : Fin 384) (hk : k.val < 341), x9 (ix1 k) = d.b2 ⟨k.val, hk⟩)
    (h10 : ∀ (k : Fin 384) (j : Fin 512) (hk : k.val < 341), x10 (ix2 k j) = d.W3 j ⟨k.val, hk⟩)
    (h10z : ∀ (k : Fin 384) (j : Fin 512), 341 ≤ k.val → x10 (ix2 k j) = 0)
    (h11 : ∀ j, x11 (ix1 j) = d.b3 j) (j : Fin 512) :
    k0_pay1 (F := Ideal) v38 x8 x9 x10 x11 (ix2 p j) = probsRow hrow d j := by
  rw [pay1_apply]
  unfold probsRow
  refine congrArg (fun z => softmax z j) (funext fun j' => ?_)
  unfold logit dense
  rw [h11 j']
  refine congrArg (· + d.b3 j') ?_
  refine (sum_padded (K := 341) (P := 43) (fun k => d2row v38 x8 x9 p k) (fun k => x10 (ix2 k j')) (fun k hk => h10z k j' hk)).trans ?_
  refine Finset.sum_congr rfl fun k _ => ?_
  have hk : (Fin.castAdd 43 k).val < 341 := k.isLt
  rw [h10 (Fin.castAdd 43 k) j' hk]
  refine congrArg (· * d.W3 j' k) ?_
  unfold d2row
  rw [h9 (Fin.castAdd 43 k) hk]
  refine congrArg (fun s => Ideal.tanh (s + d.b2 k)) ?_
  exact Finset.sum_congr rfl fun k' _ => by rw [hv k', h8 k' (Fin.castAdd 43 k) hk]; rfl

end Cert.KernelIdeal.Point

end
-- ==== Proof.KernelValue.lean ====
/-
  The kernel's two result arrays after the run, as whole-array functions of the arguments, at the ideal instance.

  The grid has 32 points; point t handles batch rows 256·t … 256·t + 255: it is handed those rows of x, h and c and the
  whole weight arrays, and writes back those rows of the two results. Row p of the first block it writes is the new
  hidden row of batch row 256·t + p, and row p of the second the decoder's probabilities of that row. The 32 blocks
  cover each result array.
-/
import proofs.«171681_j56238301774012_2_alg».proof.Proof.FrameKernelIdeal
import proofs.«171681_j56238301774012_2_alg».proof.Proof.KernelRow
import proofs.«171681_j56238301774012_2_alg».proof.Proof.KernelWindowsRead
import proofs.«171681_j56238301774012_2_alg».proof.Proof.KernelPoint

set_option maxRecDepth 16384

noncomputable section

namespace Cert.KernelIdeal.Val

open Idealize.ShloMosaic Idealize.ShloMosaic.TcCoe Idealize.ShloMosaic.ValueIdx Idealize.ShloMosaic.Pipeline Idealize.SL.Sem
open Idealize.ShloMosaic.Pipeline (Dat)
open Cert.KernelIdeal Cert.KernelIdeal.Gen Cert.KernelIdeal.Gen.Fr Cert.KernelIdeal.Row Cert.KernelIdeal.Win Cert.LstmSpec

variable (m : (ℓ : Loc nD τ sig) → Buf (Elt Ideal) ℓ) (ρ : Dev nD → PrngReg)

/-! ## The schedule's index maps, decided over the grid -/

theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = 0 ∧ win0_10.index t (1 : Fin 2) = 0
    ∧ win0_11.index t (0 : Fin 1) = 0 :=
  (by decide +kernel : ∀ t : Fin grid0.N, _)

theorem row_lt (t : Fin cfg0.N) (p : Fin 256) : 256 * t.val + p.val < 8192 := by
  have ht : t.val < 32 := lt_of_lt_of_eq t.isLt N_0
  have hp := p.isLt
  omega

/-! ## The windows' blocks -/

/-- Input window 0's block at point t is rows 256·t … 256·t + 255 of its array. -/
theorem iblk_rows0 (c : Dev nD) (t : Fin cfg0.N) (p : Fin 256) (k : Fin 1024) :
    (iblk m c 0 t : FVec Ideal S256x1024 .f32) (ix2 p k)
      = (m ((c : Thread nD τ).loc main_arg0) : S8192x1024.Idx → EReal) (ix2 ⟨256 * t.val + p.val, row_lt t p⟩ k) := by
  unfold iblk
  rw [View.read_apply]
  show V m c main_arg0 _ = _
  rw [V_main_arg0]
  refine congrArg _ (funext fun a => Fin.ext ?_)
  have hi := idx_rows t
  match a with
  | ⟨0, _⟩ => show win0_0.index t (0 : Fin 2) * 256 + 1 * p.val = 256 * t.val + p.val; omega
  | ⟨1, _⟩ => show win0_0.index t (1 : Fin 2) * 1024 + 1 * k.val = k.val; omega

/-- Input window 1's block at point t is rows 256·t … 256·t + 255 of its array. -/
theorem iblk_rows1 (c : Dev nD) (t : Fin cfg0.N) (p : Fin 256) (k : Fin 1024) :
    (iblk m c 1 t : FVec Ideal S256x1024 .f32) (ix2 p k)
      = (m ((c : Thread nD τ).loc main_arg1) : S8192x1024.Idx → EReal) (ix2 ⟨256 * t.val + p.val, row_lt t p⟩ k) := by
  unfold iblk
  rw [View.read_apply]
  show V m c main_arg1 _ = _
  rw [V_main_arg1]
  refine congrArg _ (funext fun a => Fin.ext ?_)
  have hi := idx_rows t
  match a with
  | ⟨0, _⟩ => show win0_1.index t (0 : Fin 2) * 256 + 1 * p.val = 256 * t.val + p.val; omega
  | ⟨1, _⟩ => show win0_1.index t (1 : Fin 2) * 1024 + 1 * k.val = k.val; omega

/-- Input window 2's block at point t is rows 256·t … 256·t + 255 of its array. -/
theorem iblk_rows2 (c : Dev nD) (t : Fin cfg0.N) (p : Fin 256) (k : Fin 1024) :
    (iblk m c 2 t : FVec Ideal S256x1024 .f32) (ix2 p k)
      = (m ((c : Thread nD τ).loc main_arg2) : S8192x1024.Idx → EReal) (ix2 ⟨256 * t.val + p.val, row_lt t p⟩ k) := by
  unfold iblk
  rw [View.read_apply]
  show V m c main_arg2 _ = _
  rw [V_main_arg2]
  refine congrArg _ (funext fun a => Fin.ext ?_)
  have hi := idx_rows t
  match a with
  | ⟨0, _⟩ => show win0_2.index t (0 : Fin 2) * 256 + 1 * p.val = 256 * t.val + p.val; omega
  | ⟨1, _⟩ => show win0_2.index t (1 : Fin 2) * 1024 + 1 * k.val = k.val; omega

/-- Window 3's block at every point is its whole array. -/
theorem iblk_whole3 (c : Dev nD) (t : Fin cfg0.N) : (iblk m c 3 t : S1024x4096.Idx → EReal) = (V m c main_v8 : S1024x4096.Idx → EReal) := by
  funext y
  unfold iblk
  rw [View.read_apply]
  show V m c main_v8 _ = _
  refine congrArg _ (funext fun a => Fin.ext ?_)
  have hi := idx_whole t
  match a with
  | ⟨0, _⟩ => show win0_3.index t (0 : Fin 2) * 1024 + 1 * (y 0).val = (y 0).val; omega
  | ⟨1, _⟩ => show win0_3.index t (1 : Fin 2) * 4096 + 1 * (y 1).val = (y 1).val; omega

/-- Window 4's block at every point is its whole array. -/
theorem iblk_whole4 (c : Dev nD) (t : Fin cfg0.N) : (iblk m c 4 t : S1024x4096.Idx → EReal) = (V m c main_v10 : S1024x4096.Idx → EReal) := by
  funext y
  unfold iblk
  rw [View.read_apply]
  show V m c main_v10 _ = _
  refine congrArg _ (funext fun a => Fin.ext ?_)
  have hi := idx_whole t
  match a with
  | ⟨0, _⟩ => show win0_4.index t (0 : Fin 2) * 1024 + 1 * (y 0).val = (y 0).val; omega
  | ⟨1, _⟩ => show win0_4.index t (1 : Fin 2) * 4096 + 1 * (y 1).val = (y 1).val; omega

/-- Window 5's block at every point is its whole array. -/
theorem iblk_whole5 (c : Dev nD) (t : Fin cfg0.N) : (iblk m c 5 t : S4096.Idx → EReal) = (V m c main_v6 : S4096.Idx → EReal) := by
  funext y
  unfold iblk
  rw [View.read_apply]
  show V m c main_v6 _ = _
  refine congrArg _ (funext fun a => Fin.ext ?_)
  have hi := idx_whole t
  match a with
  | ⟨0, _⟩ => show win0_5.index t (0 : Fin 1) * 4096 + 1 * (y 0).val = (y 0).val; omega

/-- Window 6's block at every point is its whole array. -/
theorem iblk_whole6 (c : Dev nD) (t : Fin cfg0.N) : (iblk m c 6 t : S1024x512.Idx → EReal) = (V m c main_v12 : S1024x512.Idx → EReal) := by
  funext y
  unfold iblk
  rw [View.read_apply]
  show V m c main_v12 _ = _
  refine congrArg _ (funext fun a => Fin.ext ?_)
  have hi := idx_whole t
  match a with
  | ⟨0, _⟩ => show win0_6.index t (0 : Fin 2) * 1024 + 1 * (y 0).val = (y 0).val; omega
  | ⟨1, _⟩ => show win0_6.index t (1 : Fin 2) * 512 + 1 * (y 1).val = (y 1).val; omega

/-- Window 7's block at every point is its whole array. -/
theorem iblk_whole7 (c : Dev nD) (t : Fin cfg0.N) : (iblk m c 7 t : S512.Idx → EReal) = (V m c main_arg20 : S512.Idx → EReal) := by
  funext y
  unfold iblk
  rw [View.read_apply]
  show V m c main_arg20 _ = _
  refine congrArg _ (funext fun a => Fin.ext ?_)
  have hi := idx_whole t
  match a with
  | ⟨0, _⟩ => show win0_7.index t (0 : Fin 1) * 512 + 1 * (y 0).val = (y 0).val; omega

/-- Window 8's block at every point is its whole array. -/
theorem iblk_whole8 (c : Dev nD) (t : Fin cfg0.N) : (iblk m c 8 t : S512x384.Idx → EReal) = (V m c main_v17 : S512x384.Idx → EReal) := by
  funext y
  unfold iblk
  rw [View.read_apply]
  show V m c main_v17 _ = _
  refine congrArg _ (funext fun a => Fin.ext ?_)
  have hi := idx_whole t
  match a with
  | ⟨0, _⟩ => show win0_8.index t (0 : Fin 2) * 512 + 1 * (y 0).val = (y 0).val; omega
  | ⟨1, _⟩ => show win0_8.index t (1 : Fin 2) * 384 + 1 * (y 1).val = (y 1).val; omega

/-- Window 9's block at every point is its whole array. -/
theorem iblk_whole9 (c : Dev nD) (t : Fin cfg0.N) : (iblk m c 9 t : S384.Idx → EReal) = (V m c main_v14 : S384.Idx → EReal) := by
  funext y
  unfold iblk
  rw [View.read_apply]
  show V m c main_v14 _ = _
  refine congrArg _ (funext fun a => Fin.ext ?_)
  have hi := idx_whole t
  match a with
  | ⟨0, _⟩ => show win0_9.index t (0 : Fin 1) * 384 + 1 * (y 0).val = (y 0).val; omega

/-- Window 10's block at every point is its whole array. -/
theorem iblk_whole10 (c : Dev nD) (t : Fin cfg0.N) : (iblk m c 10 t : S384x512.Idx → EReal) = (V m c main_v19 : S384x512.Idx → EReal) := by
  funext y
  unfold iblk
  rw [View.read_apply]
  show V m c main_v19 _ = _
  refine congrArg _ (funext fun a => Fin.ext ?_)
  have hi := idx_whole t
  match a with
  | ⟨0, _⟩ => show win0_10.index t (0 : Fin 2) * 384 + 1 * (y 0).val = (y 0).val; omega
  | ⟨1, _⟩ => show win0_10.index t (1 : Fin 2) * 512 + 1 * (y 1).val = (y 1).val; omega

/-- Window 11's block at every point is its whole array. -/
theorem iblk_whole11 (c : Dev nD) (t : Fin cfg0.N) : (iblk m c 11 t : S512.Idx → EReal) = (V m c main_arg24 : S512.Idx → EReal) := by
  funext y
  unfold iblk
  rw [View.read_apply]
  show V m c main_arg24 _ = _
  refine congrArg _ (funext fun a => Fin.ext ?_)
  have hi := idx_whole t
  match a with
  | ⟨0, _⟩ => show win0_11.index t (0 : Fin 1) * 512 + 1 * (y 0).val = (y 0).val; omega

/-! ## The weights as the mathematics takes them -/

/-- The four gates' weights and biases, from the argument arrays. -/
def cw (c : Dev nD) : CellW :=
  ⟨matOf (m ((c : Thread nD τ).loc main_arg3) : S1024x1024.Idx → EReal), vecOf (m ((c : Thread nD τ).loc main_arg4) : S1024.Idx → EReal), matOf (m ((c : Thread nD τ).loc main_arg5) : S1024x1024.Idx → EReal), vecOf (m ((c : Thread nD τ).loc main_arg6) : S1024.Idx → EReal), matOf (m ((c : Thread nD τ).loc main_arg7) : S1024x1024.Idx → EReal), vecOf (m ((c : Thread nD τ).loc main_arg8) : S1024.Idx → EReal), matOf (m ((c : Thread nD τ).loc main_arg9) : S1024x1024.Idx → EReal), vecOf (m ((c : Thread nD τ).loc main_arg10) : S1024.Idx → EReal),
   matOf (m ((c : Thread nD τ).loc main_arg11) : S1024x1024.Idx → EReal), vecOf (m ((c : Thread nD τ).loc main_arg12) : S1024.Idx → EReal), matOf (m ((c : Thread nD τ).loc main_arg13) : S1024x1024.Idx → EReal), vecOf (m ((c : Thread nD τ).loc main_arg14) : S1024.Idx → EReal), matOf (m ((c : Thread nD τ).loc main_arg15) : S1024x1024.Idx → EReal), vecOf (m ((c : Thread nD τ).loc main_arg16) : S1024.Idx → EReal), matOf (m ((c : Thread nD τ).loc main_arg17) : S1024x1024.Idx → EReal), vecOf (m ((c : Thread nD τ).loc main_arg18) : S1024.Idx → EReal)⟩

/-- The decoder's weights and biases, from the argument arrays. -/
def dw (c : Dev nD) : DecW :=
  ⟨matOf (m ((c : Thread nD τ).loc main_arg19) : S512x1024.Idx → EReal), vecOf (m ((c : Thread nD τ).loc main_arg20) : S512.Idx → EReal), matOf (m ((c : Thread nD τ).loc main_arg21) : S341x512.Idx → EReal), vecOf (m ((c : Thread nD τ).loc main_arg22) : S341.Idx → EReal), matOf (m ((c : Thread nD τ).loc main_arg23) : S512x341.Idx → EReal), vecOf (m ((c : Thread nD τ).loc main_arg24) : S512.Idx → EReal)⟩

/-- The new hidden row of batch row r. -/
def hrowAt (c : Dev nD) (r : Fin 8192) : Row 1024 :=
  hiddenRow (rowOf (m ((c : Thread nD τ).loc main_arg0) : S8192x1024.Idx → EReal) r) (rowOf (m ((c : Thread nD τ).loc main_arg1) : S8192x1024.Idx → EReal) r) (rowOf (m ((c : Thread nD τ).loc main_arg2) : S8192x1024.Idx → EReal) r) (cw m c)

/-- The first result array: the new hidden rows. -/
def G12 (c : Dev nD) : S8192x1024.Idx → EReal := fun i => hrowAt m c (i 0) (i 1)

/-- The second result array: the decoder's probabilities. -/
def G13 (c : Dev nD) : S8192x512.Idx → EReal := fun i => probsRow (hrowAt m c (i 0)) (dw m c) (i 1)

/-! ## The weight windows at a point -/

theorem win3_apply (c : Dev nD) (t : Fin cfg0.N) (g : Fin 4) (q k : Fin 1024) (c' : Fin 4096) (hc : c'.val = 1024 * g.val + q.val) :
    (iblk m c 3 t : S1024x4096.Idx → EReal) (ix2 k c') = Point.Wx (cw m c) g q k := by
  rw [iblk_whole3, V_main_v8]
  refine (wcatT_apply (fun g : Fin 4 => match g with | 0 => (m ((c : Thread nD τ).loc main_arg3) : S1024x1024.Idx → EReal) | 1 => (m ((c : Thread nD τ).loc main_arg7) : S1024x1024.Idx → EReal) | 2 => (m ((c : Thread nD τ).loc main_arg11) : S1024x1024.Idx → EReal) | 3 => (m ((c : Thread nD τ).loc main_arg15) : S1024x1024.Idx → EReal)) g q k c' hc).trans ?_
  match g with
  | 0 => rfl
  | 1 => rfl
  | 2 => rfl
  | 3 => rfl

theorem win4_apply (c : Dev nD) (t : Fin cfg0.N) (g : Fin 4) (q k : Fin 1024) (c' : Fin 4096) (hc : c'.val = 1024 * g.val + q.val) :
    (iblk m c 4 t : S1024x4096.Idx → EReal) (ix2 k c') = Point.Wh (cw m c) g q k := by
  rw [iblk_whole4, V_main_v10]
  refine (wcatT_apply (fun g : Fin 4 => match g with | 0 => (m ((c : Thread nD τ).loc main_arg5) : S1024x1024.Idx → EReal) | 1 => (m ((c : Thread nD τ).loc main_arg9) : S1024x1024.Idx → EReal) | 2 => (m ((c : Thread nD τ).loc main_arg13) : S1024x1024.Idx → EReal) | 3 => (m ((c : Thread nD τ).loc main_arg17) : S1024x1024.Idx → EReal)) g q k c' hc).trans ?_
  match g with
  | 0 => rfl
  | 1 => rfl
  | 2 => rfl
  | 3 => rfl

theorem win5_apply (c : Dev nD) (t : Fin cfg0.N) (g : Fin 4) (q : Fin 1024) (c' : Fin 4096) (hc : c'.val = 1024 * g.val + q.val) :
    (iblk m c 5 t : S4096.Idx → EReal) (ix1 c') = Point.bx (cw m c) g q + Point.bh (cw m c) g q := by
  rw [iblk_whole5, V_main_v6]
  refine (bcat_apply (fun g : Fin 4 => match g with | 0 => (m ((c : Thread nD τ).loc main_arg4) : S1024.Idx → EReal) | 1 => (m ((c : Thread nD τ).loc main_arg8) : S1024.Idx → EReal) | 2 => (m ((c : Thread nD τ).loc main_arg12) : S1024.Idx → EReal) | 3 => (m ((c : Thread nD τ).loc main_arg16) : S1024.Idx → EReal))
    (fun g : Fin 4 => match g with | 0 => (m ((c : Thread nD τ).loc main_arg6) : S1024.Idx → EReal) | 1 => (m ((c : Thread nD τ).loc main_arg10) : S1024.Idx → EReal) | 2 => (m ((c : Thread nD τ).loc main_arg14) : S1024.Idx → EReal) | 3 => (m ((c : Thread nD τ).loc main_arg18) : S1024.Idx → EReal)) g q c' hc).trans ?_
  match g with
  | 0 => rfl
  | 1 => rfl
  | 2 => rfl
  | 3 => rfl

theorem win6_apply (c : Dev nD) (t : Fin cfg0.N) (k : Fin 1024) (j : Fin 512) :
    (iblk m c 6 t : S1024x512.Idx → EReal) (ix2 k j) = (dw m c).W1 j k := by
  rw [iblk_whole6, V_main_v12]
  exact wtd1T_apply _ k j

theorem win7_apply (c : Dev nD) (t : Fin cfg0.N) (j : Fin 512) :
    (iblk m c 7 t : S512.Idx → EReal) (ix1 j) = (dw m c).b1 j := by
  rw [iblk_whole7, V_main_arg20]
  rfl

theorem win8_apply (c : Dev nD) (t : Fin cfg0.N) (k' : Fin 512) (k : Fin 384) (hk : k.val < 341) :
    (iblk m c 8 t : S512x384.Idx → EReal) (ix2 k' k) = (dw m c).W2 ⟨k.val, hk⟩ k' := by
  rw [iblk_whole8, V_main_v17]
  exact wtd2T_apply_lt _ k' k hk

theorem win9_apply (c : Dev nD) (t : Fin cfg0.N) (k : Fin 384) (hk : k.val < 341) :
    (iblk m c 9 t : S384.Idx → EReal) (ix1 k) = (dw m c).b2 ⟨k.val, hk⟩ := by
  rw [iblk_whole9, V_main_v14]
  exact bd2P_apply_lt _ k hk

theorem win10_apply (c : Dev nD) (t : Fin cfg0.N) (k : Fin 384) (j : Fin 512) (hk : k.val < 341) :
    (iblk m c 10 t : S384x512.Idx → EReal) (ix2 k j) = (dw m c).W3 j ⟨k.val, hk⟩ := by
  rw [iblk_whole10, V_main_v19]
  exact wtd3T_apply_lt _ k j hk

theorem win10_zero (c : Dev nD) (t : Fin cfg0.N) (k : Fin 384) (j : Fin 512) (hk : 341 ≤ k.val) :
    (iblk m c 10 t : S384x512.Idx → EReal) (ix2 k j) = (0 : EReal) := by
  rw [iblk_whole10, V_main_v19]
  exact wtd3T_apply_ge _ k j hk

theorem win11_apply (c : Dev nD) (t : Fin cfg0.N) (j : Fin 512) :
    (iblk m c 11 t : S512.Idx → EReal) (ix1 j) = (dw m c).b3 j := by
  rw [iblk_whole11, V_main_arg24]
  rfl

/-! ## What a point stores, row by row -/

theorem block12 (c : Dev nD) (t : Fin cfg0.N) (p : Fin 256) (q : Fin 1024) :
    k0_pay2 (F := Ideal) (iblk m c 0 t) (iblk m c 1 t) (iblk m c 2 t) (iblk m c 3 t) (iblk m c 4 t) (iblk m c 5 t) (ix2 p q)
      = hrowAt m c ⟨256 * t.val + p.val, row_lt t p⟩ q :=
  Point.pay2_spec (iblk m c 0 t) (iblk m c 1 t) (iblk m c 2 t) (iblk m c 3 t) (iblk m c 4 t) (iblk m c 5 t)
    (rowOf (m ((c : Thread nD τ).loc main_arg0) : S8192x1024.Idx → EReal) ⟨256 * t.val + p.val, row_lt t p⟩) (rowOf (m ((c : Thread nD τ).loc main_arg1) : S8192x1024.Idx → EReal) ⟨256 * t.val + p.val, row_lt t p⟩)
    (rowOf (m ((c : Thread nD τ).loc main_arg2) : S8192x1024.Idx → EReal) ⟨256 * t.val + p.val, row_lt t p⟩) (cw m c) p
    (fun k => iblk_rows0 m c t p k) (fun k => iblk_rows1 m c t p k) (fun k => iblk_rows2 m c t p k)
    (fun g q k c' hc => win3_apply m c t g q k c' hc) (fun g q k c' hc => win4_apply m c t g q k c' hc)
    (fun g q c' hc => win5_apply m c t g q c' hc) q

theorem block13 (c : Dev nD) (t : Fin cfg0.N) (p : Fin 256) (j : Fin 512) :
    k0_pay1 (F := Ideal) (k0_pay3 (F := Ideal) (iblk m c 0 t) (iblk m c 1 t) (iblk m c 2 t) (iblk m c 3 t) (iblk m c 4 t) (iblk m c 5 t) (iblk m c 6 t) (iblk m c 7 t))
        (iblk m c 8 t) (iblk m c 9 t) (iblk m c 10 t) (iblk m c 11 t) (ix2 p j)
      = probsRow (hrowAt m c ⟨256 * t.val + p.val, row_lt t p⟩) (dw m c) j :=
  Point.pay1_spec (k0_pay3 (F := Ideal) (iblk m c 0 t) (iblk m c 1 t) (iblk m c 2 t) (iblk m c 3 t) (iblk m c 4 t) (iblk m c 5 t) (iblk m c 6 t) (iblk m c 7 t))
    (iblk m c 8 t) (iblk m c 9 t) (iblk m c 10 t) (iblk m c 11 t) (hrowAt m c ⟨256 * t.val + p.val, row_lt t p⟩) (dw m c) p
    (fun k' => Point.pay3_spec (iblk m c 0 t) (iblk m c 1 t) (iblk m c 2 t) (iblk m c 3 t) (iblk m c 4 t) (iblk m c 5 t) (iblk m c 6 t) (iblk m c 7 t)
      (hrowAt m c ⟨256 * t.val + p.val, row_lt t p⟩) (dw m c).W1 (dw m c).b1 p (fun k => block12 m c t p k)
      (fun k j => win6_apply m c t k j) (fun j => win7_apply m c t j) k')
    (fun k' k hk => win8_apply m c t k' k hk) (fun k hk => win9_apply m c t k hk)
    (fun k j hk => win10_apply m c t k j hk) (fun k j hk => win10_zero m c t k j hk) (fun j => win11_apply m c t j) j

/-! ## From blocks to the arrays -/

theorem hz2 : (![0, 0] : Fin 2 → Nat) = fun _ => 0 := funext fun a => by fin_cases a <;> rfl
theorem hz1 : (![0] : Fin 1 → Nat) = fun _ => 0 := funext fun a => by fin_cases a <;> rfl

/-- What point t writes back to the first result is rows 256·t … of the new hidden rows. -/
theorem flushed12_eq (c : Dev nD) (t : Fin cfg0.N) :
    (dats m 0 c).flushed 12 t = ((cfg0.win 12).blk t).view.read (Elt Ideal) (G12 m c) := by
  show (cfg0.win 12).cut (grid0.coords t) ((dats m 0 c).after 12 t) = _
  rw [after0_12]
  unfold out0_12
  rw [View.canon_unit_zero hz2]
  simp only [View.ld_unit_zero (S := S256x1024) hz2, View.ld_unit_zero (S := S1024x4096) hz2, View.ld_unit_zero (S := S4096) hz1]
  refine funext fun (y : S256x1024.Idx) => ?_
  obtain ⟨p, q, rfl⟩ : ∃ (p : Fin 256) (q : Fin 1024), y = ix2 p q := ⟨y 0, y 1, eq_ix2 y⟩
  show k0_pay2 (F := Ideal) (iblk m c 0 t) (iblk m c 1 t) (iblk m c 2 t) (iblk m c 3 t) (iblk m c 4 t) (iblk m c 5 t) (ix2 p q)
    = G12 m c (((cfg0.win 12).blk t).view.emb (ix2 p q))
  rw [block12 m c t p q]
  have he : ((cfg0.win 12).blk t).view.emb (ix2 p q) = (ix2 ⟨256 * t.val + p.val, row_lt t p⟩ q : S8192x1024.Idx) := by
    funext a
    apply Fin.ext
    have hi := idx_rows t
    match a with
    | ⟨0, _⟩ => show win0_12.index t (0 : Fin 2) * 256 + 1 * p.val = 256 * t.val + p.val; omega
    | ⟨1, _⟩ => show win0_12.index t (1 : Fin 2) * 1024 + 1 * q.val = q.val; omega
  rw [he]
  rfl

/-- What point t writes back to the second result is rows 256·t … of the probabilities. -/
theorem flushed13_eq (c : Dev nD) (t : Fin cfg0.N) :
    (dats m 0 c).flushed 13 t = ((cfg0.win 13).blk t).view.read (Elt Ideal) (G13 m c) := by
  show (cfg0.win 13).cut (grid0.coords t) ((dats m 0 c).after 13 t) = _
  rw [after0_13]
  unfold out0_13
  rw [View.canon_unit_zero hz2]
  simp only [View.ld_unit_zero (S := S256x1024) hz2, View.ld_unit_zero (S := S1024x4096) hz2, View.ld_unit_zero (S := S4096) hz1,
    View.ld_unit_zero (S := S1024x512) hz2, View.ld_unit_zero (S := S512) hz1, View.ld_unit_zero (S := S512x384) hz2,
    View.ld_unit_zero (S := S384) hz1, View.ld_unit_zero (S := S384x512) hz2]
  refine funext fun (y : S256x512.Idx) => ?_
  obtain ⟨p, j, rfl⟩ : ∃ (p : Fin 256) (j : Fin 512), y = ix2 p j := ⟨y 0, y 1, eq_ix2 y⟩
  show k0_pay1 (F := Ideal) (k0_pay3 (F := Ideal) (iblk m c 0 t) (iblk m c 1 t) (iblk m c 2 t) (iblk m c 3 t) (iblk m c 4 t) (iblk m c 5 t) (iblk m c 6 t) (iblk m c 7 t))
        (iblk m c 8 t) (iblk m c 9 t) (iblk m c 10 t) (iblk m c 11 t) (ix2 p j)
    = G13 m c (((cfg0.win 13).blk t).view.emb (ix2 p j))
  rw [block13 m c t p j]
  have he : ((cfg0.win 13).blk t).view.emb (ix2 p j) = (ix2 ⟨256 * t.val + p.val, row_lt t p⟩ j : S8192x512.Idx) := by
    funext a
    apply Fin.ext
    have hi := idx_rows t
    match a with
    | ⟨0, _⟩ => show win0_13.index t (0 : Fin 2) * 256 + 1 * p.val = 256 * t.val + p.val; omega
    | ⟨1, _⟩ => show win0_13.index t (1 : Fin 2) * 512 + 1 * j.val = j.val; omega
  rw [he]
  rfl

theorem mem_blk12 (t : Fin cfg0.N) (i : S8192x1024.Idx) :
    i ∈ ((cfg0.win 12).blk t).view.set ↔ ∀ a : Fin 2, win0_12.index t a * S256x1024.size a ≤ (i a).val ∧ (i a).val < win0_12.index t a * S256x1024.size a + S256x1024.size a := by
  show i ∈ ((View.whole main_v20_0).slice (win0_12.rect t)).set ↔ _
  rw [View.set_slice_whole, Rect.mem_set_unit]
  exact Iff.rfl

theorem mem_blk13 (t : Fin cfg0.N) (i : S8192x512.Idx) :
    i ∈ ((cfg0.win 13).blk t).view.set ↔ ∀ a : Fin 2, win0_13.index t a * S256x512.size a ≤ (i a).val ∧ (i a).val < win0_13.index t a * S256x512.size a + S256x512.size a := by
  show i ∈ ((View.whole main_v20_1).slice (win0_13.rect t)).set ↔ _
  rw [View.set_slice_whole, Rect.mem_set_unit]
  exact Iff.rfl

/-- Row r lies in the block of point r / 256. -/
theorem cover12 (i : S8192x1024.Idx) : ∃ t : Fin cfg0.N, (cfg0.win 12).flush t = true ∧ i ∈ ((cfg0.win 12).blk t).view.set := by
  have hi0 : (i 0).val < 8192 := (i 0).isLt
  have hi1 : (i 1).val < 1024 := (i 1).isLt
  have hN : cfg0.N = 32 := N_0
  refine ⟨⟨(i 0).val / 256, by rw [hN]; omega⟩, flush0_12 _, ?_⟩
  rw [mem_blk12]
  have hi := idx_rows ⟨(i 0).val / 256, by rw [hN]; omega⟩
  intro a
  match a with
  | ⟨0, _⟩ =>
    show win0_12.index _ (0 : Fin 2) * 256 ≤ (i 0).val ∧ (i 0).val < win0_12.index _ (0 : Fin 2) * 256 + 256
    rw [hi.2.2.2.2.2.2.1]
    show (i 0).val / 256 * 256 ≤ (i 0).val ∧ (i 0).val < (i 0).val / 256 * 256 + 256
    omega
  | ⟨1, _⟩ =>
    show win0_12.index _ (1 : Fin 2) * 1024 ≤ (i 1).val ∧ (i 1).val < win0_12.index _ (1 : Fin 2) * 1024 + 1024
    rw [hi.2.2.2.2.2.2.2.1]
    omega

theorem cover13 (i : S8192x512.Idx) : ∃ t : Fin cfg0.N, (cfg0.win 13).flush t = true ∧ i ∈ ((cfg0.win 13).blk t).view.set := by
  have hi0 : (i 0).val < 8192 := (i 0).isLt
  have hi1 : (i 1).val < 512 := (i 1).isLt
  have hN : cfg0.N = 32 := N_0
  refine ⟨⟨(i 0).val / 256, by rw [hN]; omega⟩, flush0_13 _, ?_⟩
  rw [mem_blk13]
  have hi := idx_rows ⟨(i 0).val / 256, by rw [hN]; omega⟩
  intro a
  match a with
  | ⟨0, _⟩ =>
    show win0_13.index _ (0 : Fin 2) * 256 ≤ (i 0).val ∧ (i 0).val < win0_13.index _ (0 : Fin 2) * 256 + 256
    rw [hi.2.2.2.2.2.2.2.2.1]
    show (i 0).val / 256 * 256 ≤ (i 0).val ∧ (i 0).val < (i 0).val / 256 * 256 + 256
    omega
  | ⟨1, _⟩ =>
    show win0_13.index _ (1 : Fin 2) * 512 ≤ (i 1).val ∧ (i 1).val < win0_13.index _ (1 : Fin 2) * 512 + 512
    rw [hi.2.2.2.2.2.2.2.2.2]
    omega

/-- The first result array after the run. -/
theorem final12 (c : Dev nD) : (dats m 0 c).arrAt 12 cfg0.N = G12 m c :=
  (dats m 0 c).arrAt_eq_of_cover 12 (G12 m c) (fun t _ => flushed12_eq m c t) cover12

/-- The second result array after the run. -/
theorem final13 (c : Dev nD) : (dats m 0 c).arrAt 13 cfg0.N = G13 m c :=
  (dats m 0 c).arrAt_eq_of_cover 13 (G13 m c) (fun t _ => flushed13_eq m c t) cover13

/-! ## The run, read -/

/-- Every weakly fair execution of the idealized kernel program terminates with the two results at these functions of
    the arguments and the arguments unchanged. -/
theorem run : θ_run defs (onTc (τ := τ) (main (F := Ideal))) ⟨m, fun _ => 0, ρ⟩ fun r => ∀ c : Dev nD,
      r.2.mem ((c : Thread nD τ).loc main_v20_0) = G12 m c
      ∧ r.2.mem ((c : Thread nD τ).loc main_v20_1) = G13 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24) :=
  (θ_run defs _ _).mono (fun r h c => ⟨((h c).1 12).trans (final12 m c), ((h c).1 13).trans (final13 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).1 7).trans (((dats m 0 c).arrAt_in 7 rfl _).trans ((A_eq m c 7).trans (V_main_arg20 m c))),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).1 11).trans (((dats m 0 c).arrAt_in 11 rfl _).trans ((A_eq m c 11).trans (V_main_arg24 m c)))⟩)
    (run_main m ρ)

end Cert.KernelIdeal.Val

end
-- ==== Proof.LibHostBroadcast.lean ====
/-
  The host's broadcast_in_dim in the few forms a dense layer uses, read at an index.

  A scalar spread over any shape; a length-b vector made a 1 by b row and the row repeated down a rows (a bias); a
  length-a vector made an a by 1 column and the column repeated across b columns (a per-row quantity kept as a column).
-/
import Idealize.ShloMosaic.Lib.Pipeline.Value
import Idealize.ShloMosaic.Lib.ValueIdx

namespace Idealize.ShloMosaic.HostBroadcast

open Idealize.ShloMosaic Idealize.ShloMosaic.ValueIdx Idealize.ShloMosaic.Pipeline

variable {α : Type}

/-- A scalar broadcast to any shape reads the scalar everywhere. -/
theorem scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A length-b vector as a 1 by b row. -/
theorem vec_row_apply {b : ℕ} (h : (⟨1, ![b]⟩ : Shape).BroadcastsInDim ⟨2, ![1, b]⟩ ![1])
    (x : (⟨1, ![b]⟩ : Shape).Idx → α) (j : (⟨2, ![1, b]⟩ : Shape).Idx) :
    broadcastInDim ⟨2, ![1, b]⟩ ![1] h x j = x (ix1 (j 1)) :=
  broadcastInDim_apply _ h x j (ix1 (j 1)) (fun a => match a with
    | ⟨0, _⟩ => by
      show (j 1).val = if b = 1 then 0 else (j 1).val
      split
      · have := (j 1).isLt; simp at this; omega
      · rfl)

/-- A 1 by b row repeated down a rows. -/
theorem row_rows_apply {a b : ℕ} (h : (⟨2, ![1, b]⟩ : Shape).BroadcastsInDim ⟨2, ![a, b]⟩ ![0, 1])
    (x : (⟨2, ![1, b]⟩ : Shape).Idx → α) (j : (⟨2, ![a, b]⟩ : Shape).Idx) :
    broadcastInDim ⟨2, ![a, b]⟩ ![0, 1] h x j = x (ix2 (0 : Fin 1) (j 1)) :=
  broadcastInDim_apply _ h x j (ix2 (0 : Fin 1) (j 1)) (fun ax => match ax with
    | ⟨0, _⟩ => by
      show 0 = if (1 : ℕ) = 1 then 0 else (j 0).val
      rw [if_pos rfl]
    | ⟨1, _⟩ => by
      show (j 1).val = if b = 1 then 0 else (j 1).val
      split
      · have := (j 1).isLt; simp at this; omega
      · rfl)

/-- A bias: the vector at the column, whatever the row. -/
theorem bias_apply {a b : ℕ} (h1 : (⟨1, ![b]⟩ : Shape).BroadcastsInDim ⟨2, ![1, b]⟩ ![1])
    (h2 : (⟨2, ![1, b]⟩ : Shape).BroadcastsInDim ⟨2, ![a, b]⟩ ![0, 1])
    (x : (⟨1, ![b]⟩ : Shape).Idx → α) (j : (⟨2, ![a, b]⟩ : Shape).Idx) :
    broadcastInDim ⟨2, ![a, b]⟩ ![0, 1] h2 (broadcastInDim ⟨2, ![1, b]⟩ ![1] h1 x) j = x (ix1 (j 1)) :=
  (row_rows_apply h2 _ j).trans (vec_row_apply h1 x _)

/-- A length-a vector as an a by 1 column. -/
theorem vec_col_apply {a : ℕ} (h : (⟨1, ![a]⟩ : Shape).BroadcastsInDim ⟨2, ![a, 1]⟩ ![0])
    (x : (⟨1, ![a]⟩ : Shape).Idx → α) (j : (⟨2, ![a, 1]⟩ : Shape).Idx) :
    broadcastInDim ⟨2, ![a, 1]⟩ ![0] h x j = x (ix1 (j 0)) :=
  broadcastInDim_apply _ h x j (ix1 (j 0)) (fun ax => match ax with
    | ⟨0, _⟩ => by
      show (j 0).val = if a = 1 then 0 else (j 0).val
      split
      · have := (j 0).isLt; simp at this; omega
      · rfl)

/-- An a by 1 column repeated across b columns. -/
theorem col_cols_apply {a b : ℕ} (h : (⟨2, ![a, 1]⟩ : Shape).BroadcastsInDim ⟨2, ![a, b]⟩ ![0, 1])
    (x : (⟨2, ![a, 1]⟩ : Shape).Idx → α) (j : (⟨2, ![a, b]⟩ : Shape).Idx) :
    broadcastInDim ⟨2, ![a, b]⟩ ![0, 1] h x j = x (ix2 (j 0) (0 : Fin 1)) :=
  broadcastInDim_apply _ h x j (ix2 (j 0) (0 : Fin 1)) (fun ax => match ax with
    | ⟨0, _⟩ => by
      show (j 0).val = if a = 1 then 0 else (j 0).val
      split
      · have := (j 0).isLt; simp at this; omega
      · rfl
    | ⟨1, _⟩ => by
      show 0 = if (1 : ℕ) = 1 then 0 else (j 1).val
      rw [if_pos rfl])

/-- A per-row quantity kept as a column and spread over the row. -/
theorem column_apply {a b : ℕ} (h1 : (⟨1, ![a]⟩ : Shape).BroadcastsInDim ⟨2, ![a, 1]⟩ ![0])
    (h2 : (⟨2, ![a, 1]⟩ : Shape).BroadcastsInDim ⟨2, ![a, b]⟩ ![0, 1])
    (x : (⟨1, ![a]⟩ : Shape).Idx → α) (j : (⟨2, ![a, b]⟩ : Shape).Idx) :
    broadcastInDim ⟨2, ![a, b]⟩ ![0, 1] h2 (broadcastInDim ⟨2, ![a, 1]⟩ ![0] h1 x) j = x (ix1 (j 0)) :=
  (col_cols_apply h2 _ j).trans (vec_col_apply h1 x _)

end Idealize.ShloMosaic.HostBroadcast
-- ==== Proof.LibHostReduceRow.lean ====
/-
  The host's one-operand reduce along the rows of a rank-2 array, read at a row, at the ideal instance.

  For an a by b array of extended reals and a commutative associative operation f, the reduce along the second axis
  with an initial value is, at row i, the fold of f from the initial value over the b entries of the row, in no
  particular order: a row's maximum or minimum as a reference's softmax or normalisation takes it (the sum has its
  own reading as a finite sum).
-/
import Idealize.ShloMosaic.PureOps.Ideal.Laws
import Idealize.ShloMosaic.PureOps.Reduce
import Idealize.ShloMosaic.Lib.ValueIdx

noncomputable section

namespace Idealize.ShloMosaic.HostReduceRow

open Idealize.ShloMosaic Idealize.ShloMosaic.ValueIdx

variable {a b : ℕ}

/-- The index a reduction along the second axis puts back: row i, entry j. -/
theorem lift_row (h : (⟨2, ![a, b]⟩ : Shape).Reduces [(1 : Fin 2)] ⟨1, ![a]⟩) (i : Fin a) (j : Fin b) :
    h.lift (ix1 i) j = ix2 i j := by
  funext ax
  apply Fin.ext
  match ax with
  | ⟨0, _⟩ => rfl
  | ⟨1, _⟩ => rfl

/-- The host's reduce of an a by b array along its second axis is, at row i, the fold from the initial value over
    the b entries of the row. -/
theorem host_reduce_row_apply {u : Shape} (f : EReal → EReal → EReal) [Std.Commutative f] [Std.Associative f]
    (x : (⟨2, ![a, b]⟩ : Shape).Idx → EReal) (init : u.Idx → EReal)
    (h' : (⟨2, ![a, b]⟩ : Shape).ReducesTo [(1 : Fin 2)] ⟨1, ![a]⟩) (hu : 0 < u.numel)
    (h : (⟨2, ![a, b]⟩ : Shape).Reduces [(1 : Fin 2)] ⟨1, ![a]⟩) (i : Fin a) :
    Host.reduce f x init h' hu (ix1 i)
      = (Finset.univ : Finset (Fin b)).fold f (init (Shape.Idx.first hu)) (fun j => x (ix2 i j)) := by
  rw [Host.reduce_eq_fold, Shape.ReducesTo.drop_eq_drop h' h, h.fold_filter_drop_single]
  have e : (x ∘ h.lift (ix1 i)) = fun j : Fin b => x (ix2 i j) :=
    funext fun j => congrArg x (lift_row h i j)
  rw [e]
  rfl

end Idealize.ShloMosaic.HostReduceRow

end
-- ==== Proof.LibHostDense.lean ====
/-
  General readings, at the ideal instance, of the host operations a dense network's reference is made of, for any extents.

  A dense layer v @ Wᵀ + b (a dot_general against the transposed weights plus the bias made a row and repeated down
  the rows) reads, at (r, j), Σ_k v(r,k)·W(j,k) + b(j). A gate is the sum of two such layers. The logistic function
  spelt 1 / (1 + exp(−z)) with the ones broadcast from scalars is the ideal logistic. A row-wise softmax (the row's
  maximum by a reduce from −∞, joined once more with −∞, kept as a column; the row's sum by a reduce from 0) reads, at
  (p, j), exp(v(p,j) − M) / Σ_k exp(v(p,k) − M).
-/
import Idealize.ShloMosaic.Lib.ValueLayout
import Idealize.ShloMosaic.Lib.IdealHost
import proofs.«171681_j56238301774012_2_alg».proof.Proof.LibMatmulRows
import proofs.«171681_j56238301774012_2_alg».proof.Proof.LibHostBroadcast
import proofs.«171681_j56238301774012_2_alg».proof.Proof.LibHostReduceRow
import proofs.«171681_j56238301774012_2_alg».proof.Proof.LstmSpec

noncomputable section

namespace Idealize.ShloMosaic.HostDense

open Idealize.ShloMosaic Idealize.ShloMosaic.ValueIdx Idealize.ShloMosaic.Pipeline Cert.LstmSpec

variable {R K N : ℕ}

/-- A dense layer on the host, entry by entry. -/
theorem dense_apply
    (d : DotDims (⟨2, ![R, K]⟩ : Shape) (⟨2, ![K, N]⟩ : Shape) (⟨2, ![R, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (v : FVec Ideal (⟨2, ![R, K]⟩ : Shape) .f32) (W : FVec Ideal (⟨2, ![N, K]⟩ : Shape) .f32) (b : FVec Ideal (⟨1, ![N]⟩ : Shape) .f32)
    (ht : (⟨2, ![N, K]⟩ : Shape).Transposes [1, 0] ⟨2, ![K, N]⟩)
    (hb1 : (⟨1, ![N]⟩ : Shape).BroadcastsInDim ⟨2, ![1, N]⟩ ![1]) (hb2 : (⟨2, ![1, N]⟩ : Shape).BroadcastsInDim ⟨2, ![R, N]⟩ ![0, 1])
    (r : Fin R) (j : Fin N) :
    addf (Host.dotGeneral d none v (transpose ⟨2, ![K, N]⟩ [1, 0] W ht))
      (broadcastInDim ⟨2, ![R, N]⟩ ![0, 1] hb2 (broadcastInDim ⟨2, ![1, N]⟩ ![1] hb1 b)) (ix2 r j)
      = dense (fun k => v (ix2 r k)) (fun j k => W (ix2 j k)) (fun j => b (ix1 j)) j := by
  show _ + _ = _
  unfold dense
  refine congrArg₂ (· + ·) ?_ ?_
  · refine (MatmulRows.dotGeneral_apply d none .single hcl hcr hrk hs hl0 hr1 v _ (ix2 r j)).trans ?_
    exact Finset.sum_congr rfl fun k _ => congrArg (v (ix2 r k) * ·) (transpose_ix2_apply W ht k j)
  · exact HostBroadcast.bias_apply hb1 hb2 b (ix2 r j)

/-- A gate on the host: the sum of two dense layers. -/
theorem gate_apply
    (d : DotDims (⟨2, ![R, K]⟩ : Shape) (⟨2, ![K, N]⟩ : Shape) (⟨2, ![R, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (x h : FVec Ideal (⟨2, ![R, K]⟩ : Shape) .f32) (Wi Wh : FVec Ideal (⟨2, ![N, K]⟩ : Shape) .f32) (bi bh : FVec Ideal (⟨1, ![N]⟩ : Shape) .f32)
    (ht : (⟨2, ![N, K]⟩ : Shape).Transposes [1, 0] ⟨2, ![K, N]⟩)
    (hb1 : (⟨1, ![N]⟩ : Shape).BroadcastsInDim ⟨2, ![1, N]⟩ ![1]) (hb2 : (⟨2, ![1, N]⟩ : Shape).BroadcastsInDim ⟨2, ![R, N]⟩ ![0, 1])
    (r : Fin R) (j : Fin N) :
    addf (addf (Host.dotGeneral d none x (transpose ⟨2, ![K, N]⟩ [1, 0] Wi ht))
            (broadcastInDim ⟨2, ![R, N]⟩ ![0, 1] hb2 (broadcastInDim ⟨2, ![1, N]⟩ ![1] hb1 bi)))
         (addf (Host.dotGeneral d none h (transpose ⟨2, ![K, N]⟩ [1, 0] Wh ht))
            (broadcastInDim ⟨2, ![R, N]⟩ ![0, 1] hb2 (broadcastInDim ⟨2, ![1, N]⟩ ![1] hb1 bh))) (ix2 r j)
      = gate (fun k => x (ix2 r k)) (fun k => h (ix2 r k)) (fun j k => Wi (ix2 j k)) (fun j k => Wh (ix2 j k))
          (fun j => bi (ix1 j)) (fun j => bh (ix1 j)) j := by
  show _ + _ = _
  unfold gate
  exact congrArg₂ (· + ·) (dense_apply d hcl hcr hrk hs hl0 hr1 x Wi bi ht hb1 hb2 r j)
    (dense_apply d hcl hcr hrk hs hl0 hr1 h Wh bh ht hb1 hb2 r j)

/-- The logistic function as the host spells it. -/
theorem sigmoid_apply {T : Shape} (h h' : (⟨0, ![]⟩ : Shape).BroadcastsInDim T ![]) (z : FVec Ideal T .f32) (i : T.Idx) :
    Host.divf (broadcastInDim (s := ⟨0, ![]⟩) T ![] h (constant (F := Ideal) ⟨0, ![]⟩ .f32 0x3F800000#32))
      (addf (broadcastInDim (s := ⟨0, ![]⟩) T ![] h' (constant (F := Ideal) ⟨0, ![]⟩ .f32 0x3F800000#32)) (Host.exp (Host.negf z))) i
      = Ideal.logistic (z i) := by
  show Ideal.div (broadcastInDim (s := ⟨0, ![]⟩) T ![] h _ i) (broadcastInDim (s := ⟨0, ![]⟩) T ![] h' _ i + Ideal.exp (-(z i))) = _
  rw [HostBroadcast.scalar_apply]
  show Ideal.div (Ideal.ofBits .f32 0x3F800000#32) (Ideal.ofBits .f32 0x3F800000#32 + Ideal.exp (-(z i))) = _
  rw [ofBits_one]
  rfl

variable {a b : ℕ}

/-- A row's maximum as the host's softmax takes it, kept as a column and spread over the row. -/
theorem row_max_spread (v : FVec Ideal (⟨2, ![a, b]⟩ : Shape) .f32)
    (hrt : (⟨2, ![a, b]⟩ : Shape).ReducesTo [(1 : Fin 2)] ⟨1, ![a]⟩) (hr : (⟨2, ![a, b]⟩ : Shape).Reduces [(1 : Fin 2)] ⟨1, ![a]⟩)
    (hu : 0 < (⟨0, ![]⟩ : Shape).numel) (hbs : (⟨0, ![]⟩ : Shape).BroadcastsInDim ⟨1, ![a]⟩ ![])
    (hc : (⟨1, ![a]⟩ : Shape).BroadcastsInDim ⟨2, ![a, 1]⟩ ![0]) (hb : (⟨2, ![a, 1]⟩ : Shape).BroadcastsInDim ⟨2, ![a, b]⟩ ![0, 1])
    (p : Fin a) (k : Fin b) :
    broadcastInDim ⟨2, ![a, b]⟩ ![0, 1] hb (broadcastInDim ⟨2, ![a, 1]⟩ ![0] hc
      (maximumf (broadcastInDim (s := ⟨0, ![]⟩) ⟨1, ![a]⟩ ![] hbs (constant (F := Ideal) ⟨0, ![]⟩ .f32 0xFF800000#32))
        (Host.reduce (FloatOps.maximumf (F := Ideal) (φ := .f32)) v (constant (F := Ideal) ⟨0, ![]⟩ .f32 0xFF800000#32) hrt hu))) (ix2 p k)
      = (Finset.univ : Finset (Fin b)).fold max ⊥ (fun k => v (ix2 p k)) := by
  rw [HostBroadcast.column_apply]
  show max (broadcastInDim (s := ⟨0, ![]⟩) ⟨1, ![a]⟩ ![] hbs _ (ix1 p)) (Host.reduce (max : EReal → EReal → EReal) v _ hrt hu (ix1 p)) = _
  rw [HostBroadcast.scalar_apply, HostReduceRow.host_reduce_row_apply max v _ hrt hu hr p]
  show max (Ideal.ofBits .f32 0xFF800000#32) ((Finset.univ : Finset (Fin b)).fold max (Ideal.ofBits .f32 0xFF800000#32) _) = _
  rw [ofBits_neg_inf, max_eq_right bot_le]

/-- The host's row-wise softmax read at an entry. -/
theorem softmax_apply (v : FVec Ideal (⟨2, ![a, b]⟩ : Shape) .f32)
    (hrt : (⟨2, ![a, b]⟩ : Shape).ReducesTo [(1 : Fin 2)] ⟨1, ![a]⟩) (hr : (⟨2, ![a, b]⟩ : Shape).Reduces [(1 : Fin 2)] ⟨1, ![a]⟩)
    (hu : 0 < (⟨0, ![]⟩ : Shape).numel) (hbs : (⟨0, ![]⟩ : Shape).BroadcastsInDim ⟨1, ![a]⟩ ![])
    (hc : (⟨1, ![a]⟩ : Shape).BroadcastsInDim ⟨2, ![a, 1]⟩ ![0]) (hb : (⟨2, ![a, 1]⟩ : Shape).BroadcastsInDim ⟨2, ![a, b]⟩ ![0, 1])
    (p : Fin a) (j : Fin b) :
    Host.divf
      (Host.exp (subf v (broadcastInDim ⟨2, ![a, b]⟩ ![0, 1] hb (broadcastInDim ⟨2, ![a, 1]⟩ ![0] hc
        (maximumf (broadcastInDim (s := ⟨0, ![]⟩) ⟨1, ![a]⟩ ![] hbs (constant (F := Ideal) ⟨0, ![]⟩ .f32 0xFF800000#32))
          (Host.reduce (FloatOps.maximumf (F := Ideal) (φ := .f32)) v (constant (F := Ideal) ⟨0, ![]⟩ .f32 0xFF800000#32) hrt hu))))))
      (broadcastInDim ⟨2, ![a, b]⟩ ![0, 1] hb (broadcastInDim ⟨2, ![a, 1]⟩ ![0] hc
        (Host.reduceAdd
          (Host.exp (subf v (broadcastInDim ⟨2, ![a, b]⟩ ![0, 1] hb (broadcastInDim ⟨2, ![a, 1]⟩ ![0] hc
            (maximumf (broadcastInDim (s := ⟨0, ![]⟩) ⟨1, ![a]⟩ ![] hbs (constant (F := Ideal) ⟨0, ![]⟩ .f32 0xFF800000#32))
              (Host.reduce (FloatOps.maximumf (F := Ideal) (φ := .f32)) v (constant (F := Ideal) ⟨0, ![]⟩ .f32 0xFF800000#32) hrt hu))))))
          (constant (F := Ideal) ⟨0, ![]⟩ .f32 0x00000000#32) hrt hu))) (ix2 p j)
      = softmax (fun k => v (ix2 p k)) j := by
  have he : ∀ k : Fin b, (Host.exp (subf v (broadcastInDim ⟨2, ![a, b]⟩ ![0, 1] hb (broadcastInDim ⟨2, ![a, 1]⟩ ![0] hc
        (maximumf (broadcastInDim (s := ⟨0, ![]⟩) ⟨1, ![a]⟩ ![] hbs (constant (F := Ideal) ⟨0, ![]⟩ .f32 0xFF800000#32))
          (Host.reduce (FloatOps.maximumf (F := Ideal) (φ := .f32)) v (constant (F := Ideal) ⟨0, ![]⟩ .f32 0xFF800000#32) hrt hu)))))) (ix2 p k)
      = Ideal.exp (v (ix2 p k) - (Finset.univ : Finset (Fin b)).fold max ⊥ (fun k => v (ix2 p k))) := fun k => by
    show Ideal.exp (v (ix2 p k) - _) = _
    rw [row_max_spread v hrt hr hu hbs hc hb p k]
  show Ideal.div _ _ = _
  unfold softmax
  rw [he j, HostBroadcast.column_apply, hostReduceAdd_apply, Ideal.hostReduceAdd_single hrt hr]
  show Ideal.div _ (Ideal.ofBits .f32 0x00000000#32 + _) = _
  rw [Ideal.ofBits_zero_f32, zero_add]
  refine congrArg _ (Finset.sum_congr rfl fun k _ => ?_)
  exact (congrArg _ (HostReduceRow.lift_row hr p k)).trans (he k)

end Idealize.ShloMosaic.HostDense

end
-- ==== Proof.RefRow.lean ====
/-
  The reference program's two results read at an entry, at the ideal instance.

  Entry (r, j) of the first result is the new hidden value of batch row r at column j; entry (r, j) of the second is
  the decoder's probability j of that row: each dense layer a contraction against the rows of its weight matrix plus
  its bias, each logistic spelt 1/(1 + exp(−z)), the division by the temperature 1 the identity, the softmax taken
  against the row's maximum.
-/
import proofs.«171681_j56238301774012_2_alg».proof.Proof.Gen.ReferenceIdeal.Read
import proofs.«171681_j56238301774012_2_alg».proof.Proof.LibHostDense

noncomputable section

namespace Cert.ReferenceIdeal.Row

open Idealize.ShloMosaic Idealize.ShloMosaic.ValueIdx Idealize.ShloMosaic.Pipeline Cert.ReferenceIdeal Cert.ReferenceIdeal.Read Cert.LstmSpec

theorem gate_v10 (x0 x1 : FVec Ideal S8192x1024 .f32) (Wi Wh : FVec Ideal S1024x1024 .f32) (bi bh : FVec Ideal S1024 .f32) (r : Fin 8192) (j : Fin 1024) :
    val_main_v10 (F := Ideal) x0 x1 Wi bi Wh bh (ix2 r j) = gate (rowOf x0 r) (rowOf x1 r) (matOf Wi) (matOf Wh) (vecOf bi) (vecOf bh) j :=
  HostDense.gate_apply dot_S8192x1024_S1024x1024_S8192x1024_1_0_0_1_n_n rfl rfl rfl rfl lhs_main_v1_0 rhs_main_v1_1 x0 x1 Wi Wh bi bh _ _ _ r j

theorem gate_v27 (x0 x1 : FVec Ideal S8192x1024 .f32) (Wi Wh : FVec Ideal S1024x1024 .f32) (bi bh : FVec Ideal S1024 .f32) (r : Fin 8192) (j : Fin 1024) :
    val_main_v27 (F := Ideal) x0 x1 Wi bi Wh bh (ix2 r j) = gate (rowOf x0 r) (rowOf x1 r) (matOf Wi) (matOf Wh) (vecOf bi) (vecOf bh) j :=
  HostDense.gate_apply dot_S8192x1024_S1024x1024_S8192x1024_1_0_0_1_n_n rfl rfl rfl rfl lhs_main_v1_0 rhs_main_v1_1 x0 x1 Wi Wh bi bh _ _ _ r j

theorem gate_v44 (x0 x1 : FVec Ideal S8192x1024 .f32) (Wi Wh : FVec Ideal S1024x1024 .f32) (bi bh : FVec Ideal S1024 .f32) (r : Fin 8192) (j : Fin 1024) :
    val_main_v44 (F := Ideal) x0 x1 Wi bi Wh bh (ix2 r j) = gate (rowOf x0 r) (rowOf x1 r) (matOf Wi) (matOf Wh) (vecOf bi) (vecOf bh) j :=
  HostDense.gate_apply dot_S8192x1024_S1024x1024_S8192x1024_1_0_0_1_n_n rfl rfl rfl rfl lhs_main_v1_0 rhs_main_v1_1 x0 x1 Wi Wh bi bh _ _ _ r j

theorem gate_v56 (x0 x1 : FVec Ideal S8192x1024 .f32) (Wi Wh : FVec Ideal S1024x1024 .f32) (bi bh : FVec Ideal S1024 .f32) (r : Fin 8192) (j : Fin 1024) :
    val_main_v56 (F := Ideal) x0 x1 Wi bi Wh bh (ix2 r j) = gate (rowOf x0 r) (rowOf x1 r) (matOf Wi) (matOf Wh) (vecOf bi) (vecOf bh) j :=
  HostDense.gate_apply dot_S8192x1024_S1024x1024_S8192x1024_1_0_0_1_n_n rfl rfl rfl rfl lhs_main_v1_0 rhs_main_v1_1 x0 x1 Wi Wh bi bh _ _ _ r j

theorem sig_v16 (x0 x1 : FVec Ideal S8192x1024 .f32) (Wi Wh : FVec Ideal S1024x1024 .f32) (bi bh : FVec Ideal S1024 .f32) (i : S8192x1024.Idx) :
    val_main_v16 (F := Ideal) x0 x1 Wi bi Wh bh i = Ideal.logistic (val_main_v10 (F := Ideal) x0 x1 Wi bi Wh bh i) :=
  HostDense.sigmoid_apply _ _ (val_main_v10 (F := Ideal) x0 x1 Wi bi Wh bh) i
theorem sig_v33 (x0 x1 : FVec Ideal S8192x1024 .f32) (Wi Wh : FVec Ideal S1024x1024 .f32) (bi bh : FVec Ideal S1024 .f32) (i : S8192x1024.Idx) :
    val_main_v33 (F := Ideal) x0 x1 Wi bi Wh bh i = Ideal.logistic (val_main_v27 (F := Ideal) x0 x1 Wi bi Wh bh i) :=
  HostDense.sigmoid_apply _ _ (val_main_v27 (F := Ideal) x0 x1 Wi bi Wh bh) i
theorem sig_v62 (x0 x1 : FVec Ideal S8192x1024 .f32) (Wi Wh : FVec Ideal S1024x1024 .f32) (bi bh : FVec Ideal S1024 .f32) (i : S8192x1024.Idx) :
    val_main_v62 (F := Ideal) x0 x1 Wi bi Wh bh i = Ideal.logistic (val_main_v56 (F := Ideal) x0 x1 Wi bi Wh bh i) :=
  HostDense.sigmoid_apply _ _ (val_main_v56 (F := Ideal) x0 x1 Wi bi Wh bh) i

/-- The first result at (r, j): the new hidden value. -/
theorem hidden_apply (x0 x1 x2 : FVec Ideal S8192x1024 .f32) (x3 : FVec Ideal S1024x1024 .f32) (x4 : FVec Ideal S1024 .f32) (x5 : FVec Ideal S1024x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1024 .f32) (x12 : FVec Ideal S1024 .f32) (x13 : FVec Ideal S1024x1024 .f32) (x14 : FVec Ideal S1024 .f32) (x15 : FVec Ideal S1024x1024 .f32) (x16 : FVec Ideal S1024 .f32) (x17 : FVec Ideal S1024x1024 .f32) (x18 : FVec Ideal S1024 .f32) (r : Fin 8192) (j : Fin 1024) :
    val_main_v67 (F := Ideal) x0 x1 x2 x3 x4 x5 x6 x7 x8 x9 x10 x11 x12 x13 x14 x15 x16 x17 x18 (ix2 r j)
      = hiddenRow (rowOf x0 r) (rowOf x1 r) (rowOf x2 r) ⟨matOf x3, vecOf x4, matOf x5, vecOf x6, matOf x7, vecOf x8, matOf x9, vecOf x10, matOf x11, vecOf x12, matOf x13, vecOf x14, matOf x15, vecOf x16, matOf x17, vecOf x18⟩ j := by
  unfold val_main_v67 val_main_v66 val_main_v65 val_main_v63 val_main_v64 val_main_v45
  show val_main_v62 (F := Ideal) x0 x1 x15 x16 x17 x18 (ix2 r j)
      * Ideal.tanh (x2 (ix2 r j) * val_main_v16 (F := Ideal) x0 x1 x3 x4 x5 x6 (ix2 r j)
        + val_main_v33 (F := Ideal) x0 x1 x7 x8 x9 x10 (ix2 r j) * Ideal.tanh (val_main_v44 (F := Ideal) x0 x1 x11 x12 x13 x14 (ix2 r j))) = _
  rw [sig_v62, sig_v16, sig_v33, gate_v56, gate_v10, gate_v27, gate_v44]
  rfl

/-- The first decoder layer at (r, k). -/
theorem d1_apply (x0 x1 x2 : FVec Ideal S8192x1024 .f32) (x3 : FVec Ideal S1024x1024 .f32) (x4 : FVec Ideal S1024 .f32) (x5 : FVec Ideal S1024x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1024 .f32) (x12 : FVec Ideal S1024 .f32) (x13 : FVec Ideal S1024x1024 .f32) (x14 : FVec Ideal S1024 .f32) (x15 : FVec Ideal S1024x1024 .f32) (x16 : FVec Ideal S1024 .f32) (x17 : FVec Ideal S1024x1024 .f32) (x18 : FVec Ideal S1024 .f32) (x19 : FVec Ideal S512x1024 .f32) (x20 : FVec Ideal S512 .f32) (r : Fin 8192) (k : Fin 512) :
    val_main_v73 (F := Ideal) x0 x1 x2 x3 x4 x5 x6 x7 x8 x9 x10 x11 x12 x13 x14 x15 x16 x17 x18 x19 x20 (ix2 r k)
      = Ideal.tanh (dense (rowOf (val_main_v67 (F := Ideal) x0 x1 x2 x3 x4 x5 x6 x7 x8 x9 x10 x11 x12 x13 x14 x15 x16 x17 x18) r) (matOf x19) (vecOf x20) k) := by
  unfold val_main_v73
  show Ideal.tanh (val_main_v72 (F := Ideal) x0 x1 x2 x3 x4 x5 x6 x7 x8 x9 x10 x11 x12 x13 x14 x15 x16 x17 x18 x19 x20 (ix2 r k)) = _
  exact congrArg Ideal.tanh (HostDense.dense_apply dot_S8192x1024_S1024x512_S8192x512_1_0_0_1_n_n rfl rfl rfl rfl lhs_main_v69_0 rhs_main_v69_1
    (val_main_v67 (F := Ideal) x0 x1 x2 x3 x4 x5 x6 x7 x8 x9 x10 x11 x12 x13 x14 x15 x16 x17 x18) x19 x20 _ _ _ r k)

/-- The second decoder layer at (r, k). -/
theorem d2_apply (x0 x1 x2 : FVec Ideal S8192x1024 .f32) (x3 : FVec Ideal S1024x1024 .f32) (x4 : FVec Ideal S1024 .f32) (x5 : FVec Ideal S1024x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1024 .f32) (x12 : FVec Ideal S1024 .f32) (x13 : FVec Ideal S1024x1024 .f32) (x14 : FVec Ideal S1024 .f32) (x15 : FVec Ideal S1024x1024 .f32) (x16 : FVec Ideal S1024 .f32) (x17 : FVec Ideal S1024x1024 .f32) (x18 : FVec Ideal S1024 .f32) (x19 : FVec Ideal S512x1024 .f32) (x20 : FVec Ideal S512 .f32) (x21 : FVec Ideal S341x512 .f32) (x22 : FVec Ideal S341 .f32) (r : Fin 8192) (k : Fin 341) :
    val_main_v79 (F := Ideal) x0 x1 x2 x3 x4 x5 x6 x7 x8 x9 x10 x11 x12 x13 x14 x15 x16 x17 x18 x19 x20 x21 x22 (ix2 r k)
      = Ideal.tanh (dense (rowOf (val_main_v73 (F := Ideal) x0 x1 x2 x3 x4 x5 x6 x7 x8 x9 x10 x11 x12 x13 x14 x15 x16 x17 x18 x19 x20) r) (matOf x21) (vecOf x22) k) := by
  unfold val_main_v79
  show Ideal.tanh (val_main_v78 (F := Ideal) x0 x1 x2 x3 x4 x5 x6 x7 x8 x9 x10 x11 x12 x13 x14 x15 x16 x17 x18 x19 x20 x21 x22 (ix2 r k)) = _
  exact congrArg Ideal.tanh (HostDense.dense_apply dot_S8192x512_S512x341_S8192x341_1_0_0_1_n_n rfl rfl rfl rfl lhs_main_v75_0 rhs_main_v75_1
    (val_main_v73 (F := Ideal) x0 x1 x2 x3 x4 x5 x6 x7 x8 x9 x10 x11 x12 x13 x14 x15 x16 x17 x18 x19 x20) x21 x22 _ _ _ r k)

/-- The logits at (r, j): the third layer, divided by the temperature 1. -/
theorem logits_apply (x0 x1 x2 : FVec Ideal S8192x1024 .f32) (x3 : FVec Ideal S1024x1024 .f32) (x4 : FVec Ideal S1024 .f32) (x5 : FVec Ideal S1024x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1024 .f32) (x12 : FVec Ideal S1024 .f32) (x13 : FVec Ideal S1024x1024 .f32) (x14 : FVec Ideal S1024 .f32) (x15 : FVec Ideal S1024x1024 .f32) (x16 : FVec Ideal S1024 .f32) (x17 : FVec Ideal S1024x1024 .f32) (x18 : FVec Ideal S1024 .f32) (x19 : FVec Ideal S512x1024 .f32) (x20 : FVec Ideal S512 .f32) (x21 : FVec Ideal S341x512 .f32) (x22 : FVec Ideal S341 .f32) (x23 : FVec Ideal S512x341 .f32) (x24 : FVec Ideal S512 .f32) (r : Fin 8192) (j : Fin 512) :
    val_main_v86 (F := Ideal) x0 x1 x2 x3 x4 x5 x6 x7 x8 x9 x10 x11 x12 x13 x14 x15 x16 x17 x18 x19 x20 x21 x22 x23 x24 (ix2 r j)
      = dense (rowOf (val_main_v79 (F := Ideal) x0 x1 x2 x3 x4 x5 x6 x7 x8 x9 x10 x11 x12 x13 x14 x15 x16 x17 x18 x19 x20 x21 x22) r) (matOf x23) (vecOf x24) j := by
  unfold val_main_v86 val_main_v85 val_main_cst_5
  show Ideal.div (val_main_v84 (F := Ideal) x0 x1 x2 x3 x4 x5 x6 x7 x8 x9 x10 x11 x12 x13 x14 x15 x16 x17 x18 x19 x20 x21 x22 x23 x24 (ix2 r j)) (broadcastInDim (s := S_) S8192x512 ![] _ (constant (F := Ideal) S_ .f32 0x3F800000#32) (ix2 r j)) = _
  rw [HostBroadcast.scalar_apply]
  show Ideal.div _ (Ideal.ofBits .f32 0x3F800000#32) = _
  rw [ofBits_one, div_one']
  exact HostDense.dense_apply dot_S8192x341_S341x512_S8192x512_1_0_0_1_n_n rfl rfl rfl rfl lhs_main_v81_0 rhs_main_v81_1
    (val_main_v79 (F := Ideal) x0 x1 x2 x3 x4 x5 x6 x7 x8 x9 x10 x11 x12 x13 x14 x15 x16 x17 x18 x19 x20 x21 x22) x23 x24 _ _ _ r j

/-- The second result at (r, j): the softmax of the row's logits. -/
theorem probs_softmax (x0 x1 x2 : FVec Ideal S8192x1024 .f32) (x3 : FVec Ideal S1024x1024 .f32) (x4 : FVec Ideal S1024 .f32) (x5 : FVec Ideal S1024x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1024 .f32) (x12 : FVec Ideal S1024 .f32) (x13 : FVec Ideal S1024x1024 .f32) (x14 : FVec Ideal S1024 .f32) (x15 : FVec Ideal S1024x1024 .f32) (x16 : FVec Ideal S1024 .f32) (x17 : FVec Ideal S1024x1024 .f32) (x18 : FVec Ideal S1024 .f32) (x19 : FVec Ideal S512x1024 .f32) (x20 : FVec Ideal S512 .f32) (x21 : FVec Ideal S341x512 .f32) (x22 : FVec Ideal S341 .f32) (x23 : FVec Ideal S512x341 .f32) (x24 : FVec Ideal S512 .f32) (r : Fin 8192) (j : Fin 512) :
    val_main_v97 (F := Ideal) x0 x1 x2 x3 x4 x5 x6 x7 x8 x9 x10 x11 x12 x13 x14 x15 x16 x17 x18 x19 x20 x21 x22 x23 x24 (ix2 r j)
      = softmax (fun k => val_main_v86 (F := Ideal) x0 x1 x2 x3 x4 x5 x6 x7 x8 x9 x10 x11 x12 x13 x14 x15 x16 x17 x18 x19 x20 x21 x22 x23 x24 (ix2 r k)) j :=
  HostDense.softmax_apply (val_main_v86 (F := Ideal) x0 x1 x2 x3 x4 x5 x6 x7 x8 x9 x10 x11 x12 x13 x14 x15 x16 x17 x18 x19 x20 x21 x22 x23 x24) _ (by decide) _ _ _ _ r j

/-- The second result at (r, j) in terms of the first result's row r. -/
theorem probs_apply (x0 x1 x2 : FVec Ideal S8192x1024 .f32) (x3 : FVec Ideal S1024x1024 .f32) (x4 : FVec Ideal S1024 .f32) (x5 : FVec Ideal S1024x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1024 .f32) (x12 : FVec Ideal S1024 .f32) (x13 : FVec Ideal S1024x1024 .f32) (x14 : FVec Ideal S1024 .f32) (x15 : FVec Ideal S1024x1024 .f32) (x16 : FVec Ideal S1024 .f32) (x17 : FVec Ideal S1024x1024 .f32) (x18 : FVec Ideal S1024 .f32) (x19 : FVec Ideal S512x1024 .f32) (x20 : FVec Ideal S512 .f32) (x21 : FVec Ideal S341x512 .f32) (x22 : FVec Ideal S341 .f32) (x23 : FVec Ideal S512x341 .f32) (x24 : FVec Ideal S512 .f32) (r : Fin 8192) (j : Fin 512) :
    val_main_v97 (F := Ideal) x0 x1 x2 x3 x4 x5 x6 x7 x8 x9 x10 x11 x12 x13 x14 x15 x16 x17 x18 x19 x20 x21 x22 x23 x24 (ix2 r j)
      = probsRow (rowOf (val_main_v67 (F := Ideal) x0 x1 x2 x3 x4 x5 x6 x7 x8 x9 x10 x11 x12 x13 x14 x15 x16 x17 x18) r) ⟨matOf x19, vecOf x20, matOf x21, vecOf x22, matOf x23, vecOf x24⟩ j := by
  rw [probs_softmax]
  unfold probsRow
  refine congrArg (fun z => softmax z j) (funext fun j' => ?_)
  rw [logits_apply]
  refine congrArg (fun v => dense v _ _ j') (funext fun k => ?_)
  show val_main_v79 (F := Ideal) x0 x1 x2 x3 x4 x5 x6 x7 x8 x9 x10 x11 x12 x13 x14 x15 x16 x17 x18 x19 x20 x21 x22 (ix2 r k) = _
  rw [d2_apply]
  refine congrArg Ideal.tanh (congrArg (fun v => dense v _ _ k) (funext fun k' => ?_))
  exact d1_apply x0 x1 x2 x3 x4 x5 x6 x7 x8 x9 x10 x11 x12 x13 x14 x15 x16 x17 x18 x19 x20 r k'

end Cert.ReferenceIdeal.Row

end
-- ==== Proof.LstmArrays.lean ====
/-
  The two results as whole arrays: entry (r, j) of the first is column j of batch row r's new hidden row, entry (r, j)
  of the second is probability j of that row's decoder output; the weights taken from their arrays.
-/
import proofs.«171681_j56238301774012_2_alg».proof.Proof.LstmSpec

noncomputable section

namespace Cert.LstmSpec

open Idealize.ShloMosaic Idealize.ShloMosaic.ValueIdx

abbrev A2 (a b : ℕ) := (⟨2, ![a, b]⟩ : Shape).Idx → EReal
abbrev A1 (a : ℕ) := (⟨1, ![a]⟩ : Shape).Idx → EReal

/-- The gates' weights and biases from their sixteen arrays, in the programs' argument order. -/
def mkCellW (x3 : A2 1024 1024) (x4 : A1 1024) (x5 : A2 1024 1024) (x6 : A1 1024) (x7 : A2 1024 1024) (x8 : A1 1024)
    (x9 : A2 1024 1024) (x10 : A1 1024) (x11 : A2 1024 1024) (x12 : A1 1024) (x13 : A2 1024 1024) (x14 : A1 1024)
    (x15 : A2 1024 1024) (x16 : A1 1024) (x17 : A2 1024 1024) (x18 : A1 1024) : CellW :=
  ⟨matOf x3, vecOf x4, matOf x5, vecOf x6, matOf x7, vecOf x8, matOf x9, vecOf x10, matOf x11, vecOf x12, matOf x13, vecOf x14,
   matOf x15, vecOf x16, matOf x17, vecOf x18⟩

/-- The decoder's weights and biases from their six arrays. -/
def mkDecW (x19 : A2 512 1024) (x20 : A1 512) (x21 : A2 341 512) (x22 : A1 341) (x23 : A2 512 341) (x24 : A1 512) : DecW :=
  ⟨matOf x19, vecOf x20, matOf x21, vecOf x22, matOf x23, vecOf x24⟩

/-- The first result: the new hidden rows. -/
def specH (x0 x1 x2 : A2 8192 1024) (w : CellW) : A2 8192 1024 := fun i =>
  hiddenRow (rowOf x0 (i 0)) (rowOf x1 (i 0)) (rowOf x2 (i 0)) w (i 1)

/-- The second result: the decoder's probabilities. -/
def specD (x0 x1 x2 : A2 8192 1024) (w : CellW) (d : DecW) : A2 8192 512 := fun i =>
  probsRow (hiddenRow (rowOf x0 (i 0)) (rowOf x1 (i 0)) (rowOf x2 (i 0)) w) d (i 1)

end Cert.LstmSpec

end
-- ==== Proof.RefValue.lean ====
/-
  The reference program's two results as whole arrays, at the ideal instance: the new hidden rows and the decoder's
  probabilities of the mathematics, entry by entry.
-/
import proofs.«171681_j56238301774012_2_alg».proof.Proof.RefRow
import proofs.«171681_j56238301774012_2_alg».proof.Proof.LstmArrays

noncomputable section

namespace Cert.ReferenceIdeal.Row

open Idealize.ShloMosaic Idealize.ShloMosaic.ValueIdx Cert.ReferenceIdeal Cert.ReferenceIdeal.Read Cert.LstmSpec

theorem v67_eq (x0 x1 x2 : FVec Ideal S8192x1024 .f32) (x3 : FVec Ideal S1024x1024 .f32) (x4 : FVec Ideal S1024 .f32) (x5 : FVec Ideal S1024x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1024 .f32) (x12 : FVec Ideal S1024 .f32) (x13 : FVec Ideal S1024x1024 .f32) (x14 : FVec Ideal S1024 .f32) (x15 : FVec Ideal S1024x1024 .f32) (x16 : FVec Ideal S1024 .f32) (x17 : FVec Ideal S1024x1024 .f32) (x18 : FVec Ideal S1024 .f32) :
    val_main_v67 (F := Ideal) x0 x1 x2 x3 x4 x5 x6 x7 x8 x9 x10 x11 x12 x13 x14 x15 x16 x17 x18 = specH x0 x1 x2 (mkCellW x3 x4 x5 x6 x7 x8 x9 x10 x11 x12 x13 x14 x15 x16 x17 x18) := by
  refine funext fun (i : S8192x1024.Idx) => ?_
  obtain ⟨r, j, rfl⟩ : ∃ (r : Fin 8192) (j : Fin 1024), i = ix2 r j := ⟨i 0, i 1, eq_ix2 i⟩
  exact hidden_apply x0 x1 x2 x3 x4 x5 x6 x7 x8 x9 x10 x11 x12 x13 x14 x15 x16 x17 x18 r j

theorem v97_eq (x0 x1 x2 : FVec Ideal S8192x1024 .f32) (x3 : FVec Ideal S1024x1024 .f32) (x4 : FVec Ideal S1024 .f32) (x5 : FVec Ideal S1024x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1024 .f32) (x12 : FVec Ideal S1024 .f32) (x13 : FVec Ideal S1024x1024 .f32) (x14 : FVec Ideal S1024 .f32) (x15 : FVec Ideal S1024x1024 .f32) (x16 : FVec Ideal S1024 .f32) (x17 : FVec Ideal S1024x1024 .f32) (x18 : FVec Ideal S1024 .f32) (x19 : FVec Ideal S512x1024 .f32) (x20 : FVec Ideal S512 .f32) (x21 : FVec Ideal S341x512 .f32) (x22 : FVec Ideal S341 .f32) (x23 : FVec Ideal S512x341 .f32) (x24 : FVec Ideal S512 .f32) :
    val_main_v97 (F := Ideal) x0 x1 x2 x3 x4 x5 x6 x7 x8 x9 x10 x11 x12 x13 x14 x15 x16 x17 x18 x19 x20 x21 x22 x23 x24
      = specD x0 x1 x2 (mkCellW x3 x4 x5 x6 x7 x8 x9 x10 x11 x12 x13 x14 x15 x16 x17 x18) (mkDecW x19 x20 x21 x22 x23 x24) := by
  refine funext fun (i : S8192x512.Idx) => ?_
  obtain ⟨r, j, rfl⟩ : ∃ (r : Fin 8192) (j : Fin 512), i = ix2 r j := ⟨i 0, i 1, eq_ix2 i⟩
  rw [probs_apply]
  unfold specD
  refine congrArg (fun v => probsRow v _ j) (funext fun k => ?_)
  exact hidden_apply x0 x1 x2 x3 x4 x5 x6 x7 x8 x9 x10 x11 x12 x13 x14 x15 x16 x17 x18 r k

end Cert.ReferenceIdeal.Row

end
-- ==== Proof.lean ====
/-
  The certificate's claim: the three programs' frames, the idealization, and the equality of the idealized kernel and the
  idealized reference on the extended reals.

  Both idealized programs compute, for each batch row, the LSTM step's new hidden row and the decoder's probabilities of
  it. The kernel fuses the eight gate layers into two wide products over stacked, transposed weights and one stacked
  bias, handles 256 rows per grid point, and pads the decoder's middle width from 341 to 384 with zero weights; the
  reference computes each layer apart over the whole batch. Index by index the two are one extended-real expression:
  a gate's pre-activation (A + b) + (C + b') against (A + C) + (b + b'), which needs only that addition is commutative
  and associative, and a contraction whose padded terms meet zero weights. No finiteness of the inputs is used.
-/
import proofs.«171681_j56238301774012_2_alg».proof.Defs
import proofs.«171681_j56238301774012_2_alg».proof.Proof.Gen.Kernel
import proofs.«171681_j56238301774012_2_alg».proof.Proof.Gen.KernelIdeal
import proofs.«171681_j56238301774012_2_alg».proof.Proof.Gen.ReferenceIdeal
import proofs.«171681_j56238301774012_2_alg».proof.Proof.Gen.Pre_finite_inputs
import proofs.«171681_j56238301774012_2_alg».proof.Proof.FrameKernel
import proofs.«171681_j56238301774012_2_alg».proof.Proof.FrameKernelIdeal
import proofs.«171681_j56238301774012_2_alg».proof.Proof.Gen.ReferenceIdeal.Run
import proofs.«171681_j56238301774012_2_alg».proof.Proof.KernelValue
import proofs.«171681_j56238301774012_2_alg».proof.Proof.RefValue
import Idealize.ShloMosaic.Adequacy
import Idealize.ShloMosaic.Init

noncomputable section

namespace Cert.Proof

open Idealize.ShloMosaic Idealize.ShloMosaic.TcCoe Idealize.SL.Sem Cert.LstmSpec

theorem frame_k : Cert.frame_Kernel := fun m g _ => Cert.Kernel.Gen.Fr.frame m g

theorem frame_ki : Cert.frame_KernelIdeal := fun m g _ => Cert.KernelIdeal.Gen.Fr.frame m g

/-- The reference has no kernel: its frame is its run with the results dropped. -/
theorem frame_ri : Cert.frame_ReferenceIdeal := fun m g _ =>
  (θ_run Cert.ReferenceIdeal.defs _ _).mono (fun _ h c => (h c).2.2) (Cert.ReferenceIdeal.Value.run (F := Ideal) m g)

/-- The ideal pass rewrote nothing. -/
theorem preserves : Cert.preserves_Kernel_KernelIdeal := trivial

/-- The kernel's first result array is the new hidden rows of the mathematics. -/
theorem G12_eq (m : (ℓ : Loc Cert.KernelIdeal.nD Cert.KernelIdeal.τ Cert.KernelIdeal.sig) → Buf (Elt Ideal) ℓ) (c : Dev Cert.KernelIdeal.nD) :
    Cert.KernelIdeal.Val.G12 m c = specH (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (mkCellW (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) := rfl

/-- The kernel's second result array is the decoder's probabilities of the mathematics. -/
theorem G13_eq (m : (ℓ : Loc Cert.KernelIdeal.nD Cert.KernelIdeal.τ Cert.KernelIdeal.sig) → Buf (Elt Ideal) ℓ) (c : Dev Cert.KernelIdeal.nD) :
    Cert.KernelIdeal.Val.G13 m c = specD (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (mkCellW (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)))
      (mkDecW (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) := rfl

/-- At the ideal instance both programs end with the two results at the same functions of arguments that agree. -/
theorem algebraic : Cert.algebraic_KernelIdeal_ReferenceIdeal := by
  intro m g m' g' _ hagree
  refine ⟨fun c => Cert.KernelIdeal.Val.G12 m c, fun c => Cert.KernelIdeal.Val.G13 m c, Cert.KernelIdeal.Val.run m g, ?_⟩
  refine (θ_run Cert.ReferenceIdeal.defs _ _).mono (fun r h c => ⟨?_, ?_, (h c).2.2⟩)
    (Cert.ReferenceIdeal.Value.run (F := Ideal) m' g')
  · refine (h c).1.trans ?_
    refine (Cert.ReferenceIdeal.Read.val_main_v67_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))).trans ?_
    rw [Cert.ReferenceIdeal.Row.v67_eq]
    refine Eq.trans ?_ (G12_eq m c).symm
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1]
  · refine (h c).2.1.trans ?_
    refine (Cert.ReferenceIdeal.Read.val_main_v97_eq m' c).trans ?_
    rw [Cert.ReferenceIdeal.Row.v97_eq]
    refine Eq.trans ?_ (G13_eq m c).symm
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
